-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S1024x64 .f32) (main_arg1 : FVec F S128x128 .f32) (main_arg2 : FVec F S128 .f32) (main_arg3 : FVec F S128x64 .f32) (main_arg4 : FVec F S64 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S1024x64 : Shape := ⟨2, ![1024, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S1024x128 : Shape := ⟨2, ![1024, 128]⟩
abbrev S1x128 : Shape := ⟨2, ![1, 128]⟩
abbrev S512x128 : Shape := ⟨2, ![512, 128]⟩
abbrev S32x128 : Shape := ⟨2, ![32, 128]⟩
abbrev S512x64 : Shape := ⟨2, ![512, 64]⟩
abbrev S512x1x128 : Shape := ⟨3, ![512, 1, 128]⟩
abbrev S1x32x128 : Shape := ⟨3, ![1, 32, 128]⟩
abbrev S512x32x128 : Shape := ⟨3, ![512, 32, 128]⟩
abbrev S1x1x128 : Shape := ⟨3, ![1, 1, 128]⟩
abbrev S_ : Shape := ⟨0, ![]⟩
abbrev S1x64 : Shape := ⟨2, ![1, 64]⟩

abbrev nBuf : Space → Nat
  | .hbm => 24
  | .vmem => 9
  | .smem => 0
  | _ => 0

abbrev bufTy : (tb : Table) → Fin (tcTables nBuf tb) → BufTy
  | .hbm, ⟨0, _⟩ => ⟨S1024x64, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S64x128, .f32⟩
  | .hbm, ⟨6, _⟩ => ⟨S64x128, .f32⟩
  | .hbm, ⟨7, _⟩ => ⟨S1024x128, .f32⟩
  | .hbm, ⟨8, _⟩ => ⟨S1024x128, .f32⟩
  | .hbm, ⟨9, _⟩ => ⟨S1x128, .f32⟩
  | .hbm, ⟨10, _⟩ => ⟨S1024x64, .f32⟩
  | .hbm, ⟨11, _⟩ => ⟨S1024x128, .f32⟩
  | .hbm, ⟨12, _⟩ => ⟨S1x128, .f32⟩
  | .hbm, ⟨13, _⟩ => ⟨S1024x128, .f32⟩
  | .hbm, ⟨14, _⟩ => ⟨S1024x128, .f32⟩
  | .hbm, ⟨15, _⟩ => ⟨S1024x128, .f32⟩
  | .hbm, ⟨16, _⟩ => ⟨S1024x64, .f32⟩
  | .hbm, ⟨17, _⟩ => ⟨S1024x64, .f32⟩
  | .hbm, ⟨18, _⟩ => ⟨S_, .f32⟩
  | .hbm, ⟨19, _⟩ => ⟨S1024x64, .f32⟩
  | .hbm, ⟨20, _⟩ => ⟨S1024x64, .f32⟩
  | .hbm, ⟨21, _⟩ => ⟨S1x64, .f32⟩
  | .hbm, ⟨22, _⟩ => ⟨S1024x64, .f32⟩
  | .hbm, ⟨23, _⟩ => ⟨S1024x64, .f32⟩
  | .local _ .vmem, ⟨0, _⟩ => ⟨S512x128, .f32⟩
  | .local _ .vmem, ⟨1, _⟩ => ⟨S512x128, .f32⟩
  | .local _ .vmem, ⟨2, _⟩ => ⟨S32x128, .f32⟩
  | .local _ .vmem, ⟨3, _⟩ => ⟨S32x128, .f32⟩
  | .local _ .vmem, ⟨4, _⟩ => ⟨S1x128, .f32⟩
  | .local _ .vmem, ⟨5, _⟩ => ⟨S128x64, .f32⟩
  | .local _ .vmem, ⟨6, _⟩ => ⟨S512x64, .f32⟩
  | .local _ .vmem, ⟨7, _⟩ => ⟨S512x64, .f32⟩
  | .local _ .vmem, ⟨8, _⟩ => ⟨S512x128, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v24 : BitVec 1 := Scalar.cmpi .eq arg1 c31_i32
  let v25 : BitVec 32 := Scalar.extui v24
  let c0_i32_10 : BitVec 32 := 0#32
  let v26 : BitVec 1 := Scalar.cmpi .ne v25 c0_i32_10
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S128x128_S64x128_0_0 : S128x128.Slices ![0, 0] S64x128
  slices_S128x128_S64x128_64_0 : S128x128.Slices ![64, 0] S64x128
  shapeCasts_S128_S1x128 : S128.ShapeCasts S1x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S128 : S1x128.ShapeCasts S128
  shapeCasts_S512x128_S512x1x128 : S512x128.ShapeCasts S512x1x128
  shapeCasts_S32x128_S1x32x128 : S32x128.ShapeCasts S1x32x128
  broadcasts_S512x1x128_S512x32x128 : S512x1x128.Broadcasts S512x32x128
  broadcasts_S1x32x128_S512x32x128 : S1x32x128.Broadcasts S512x32x128
  shapeCasts_S128_S1x1x128 : S128.ShapeCasts S1x1x128
  broadcasts_S1x1x128_S512x32x128 : S1x1x128.Broadcasts S512x32x128
  reduces_S512x32x128_S512x128 : S512x32x128.Reduces [1] S512x128
  inb_S128x64_S128x64_0_0 : ∀ a, (![0, 0] : Fin 2 → Nat) a + S128x64.size a ≤ S128x64.size a
  h_S128x64 : 0 < S128x64.numel
  inb_S512x64_S512x64_0_0 : ∀ a, (![0, 0] : Fin 2 → Nat) a + S512x64.size a ≤ S512x64.size a
  h_S512x64 : 0 < S512x64.numel
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x64 : S_.BroadcastsInDim S1024x64 (![] : Fin 0 → Fin S1024x64.rank)
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  dot_S1024x64_S64x128_S1024x128_1_0_0_1_n_n_wf : DotDims.WF S1024x64 S64x128 S1024x128 [1] [0] [0] [1] [] []
  dot_S512x128_S128x64_S512x64_1_0_0_1_n_n_wf : DotDims.WF S512x128 S128x64 S512x64 [1] [0] [0] [1] [] []
  dot_S1024x128_S128x64_S1024x64_1_0_0_1_n_n_wf : DotDims.WF S1024x128 S128x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S1024x128.size a
  hwx0_0 : ∀ i : grid0.Coords, EltTy.bits .f32 = 32 ∨ (Rect.block (s := S1024x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S1024x128.size a
  hwx0_1 : ∀ i : grid0.Coords, EltTy.bits .f32 = 32 ∨ (Rect.block (s := S1024x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x64.size a ≤ S1024x64.size a
  hwx0_4 : ∀ i : grid0.Coords, EltTy.bits .f32 = 32 ∨ (Rect.block (s := S1024x64) S512x64.size (cc0_transform_4 i) (hinb0_4 i)).WholeWords (EltTy.packing .f32)

variable [Facts₀]

def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf

abbrev win0_0 : Pipeline.Window sig grid0 :=
  Pipeline.Window.ofSpec (Memref.whole main_v2) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1024x64 : Shape := ⟨2, ![1024, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1024 : Shape := ⟨1, ![1024]⟩
abbrev S1024x1 : Shape := ⟨2, ![1024, 1]⟩
abbrev S1023 : Shape := ⟨1, ![1023]⟩
abbrev S_ : Shape := ⟨0, ![]⟩
abbrev S1x1023 : Shape := ⟨2, ![1, 1023]⟩
abbrev S1024x1023 : Shape := ⟨2, ![1024, 1023]⟩
abbrev S1024x1x64 : Shape := ⟨3, ![1024, 1, 64]⟩
abbrev S1024x1023x64 : Shape := ⟨3, ![1024, 1023, 64]⟩
abbrev S1024x1023x1 : Shape := ⟨3, ![1024, 1023, 1]⟩
abbrev S1024x1023x128 : Shape := ⟨3, ![1024, 1023, 128]⟩
abbrev S1x1x128 : Shape := ⟨3, ![1, 1, 128]⟩
abbrev S1x1x64 : Shape := ⟨3, ![1, 1, 64]⟩

abbrev nBuf : Space → Nat
  | .hbm => 63
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S1024, .i32⟩
  | .hbm, ⟨6, _⟩ => ⟨S1024x1, .i32⟩
  | .hbm, ⟨7, _⟩ => ⟨S1023, .i32⟩
  | .hbm, ⟨8, _⟩ => ⟨S_, .i32⟩
  | .hbm, ⟨9, _⟩ => ⟨S1023, .i32⟩
  | .hbm, ⟨10, _⟩ => ⟨S1023, .i32⟩
  | .hbm, ⟨11, _⟩ => ⟨S1x1023, .i32⟩
  | .hbm, ⟨12, _⟩ => ⟨S1024x1023, .i32⟩
  | .hbm, ⟨13, _⟩ => ⟨S1024x1023, .i32⟩
  | .hbm, ⟨14, _⟩ => ⟨S1024x1023, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S1024x1023, .i32⟩
  | .hbm, ⟨22, _⟩ => ⟨S1024x1023, .i32⟩
  | .hbm, ⟨23, _⟩ => ⟨S_, .i32⟩
  | .hbm, ⟨24, _⟩ => ⟨S1024x1023, .i32⟩
  | .hbm, ⟨25, _⟩ => ⟨S1024x1023, .i1⟩
  | .hbm, ⟨26, _⟩ => ⟨S_, .i32⟩
  | .hbm, ⟨27, _⟩ => ⟨S1024x1023, .i32⟩
  | .hbm, ⟨28, _⟩ => ⟨S1024x1023, .i1⟩
  | .hbm, ⟨29, _⟩ => ⟨S_, .i32⟩
  | .hbm, ⟨30, _⟩ => ⟨S_, .i1⟩
  | .hbm, ⟨31, _⟩ => ⟨S1024x1023, .i1⟩
  | .hbm, ⟨32, _⟩ => ⟨S1024x1023, .i1⟩
  | .hbm, ⟨33, _⟩ => ⟨S1024x1023, .i1⟩
  | .hbm, ⟨34, _⟩ => ⟨S1024x1023, .i32⟩
  | .hbm, ⟨35, _⟩ => ⟨S1024x1023, .i32⟩
  | .hbm, ⟨36, _⟩ => ⟨S1024x1023, .i32⟩
  | .hbm, ⟨37, _⟩ => ⟨S1024x1x64, .f32⟩
  | .hbm, ⟨38, _⟩ => ⟨S1024x1023x64, .f32⟩
  | .hbm, ⟨39, _⟩ => ⟨S_, .i32⟩
  | .hbm, ⟨40, _⟩ => ⟨S1024x1023, .i32⟩
  | .hbm, ⟨41, _⟩ => ⟨S1024x1023, .i1⟩
  | .hbm, ⟨42, _⟩ => ⟨S_, .i32⟩
  | .hbm, ⟨43, _⟩ => ⟨S1024x1023, .i32⟩
  | .hbm, ⟨44, _⟩ => ⟨S1024x1023, .i32⟩
  | .hbm, ⟨45, _⟩ => ⟨S1024x1023, .i32⟩
  | .hbm, ⟨46, _⟩ => ⟨S1024x1023x1, .i32⟩
  | .hbm, ⟨47, _⟩ => ⟨S1024x1023x64, .f32⟩
  | .hbm, ⟨48, _⟩ => ⟨S1024x1023x128, .f32⟩
  | .hbm, ⟨49, _⟩ => ⟨S1024x1023x128, .f32⟩
  | .hbm, ⟨50, _⟩ => ⟨S1x1x128, .f32⟩
  | .hbm, ⟨51, _⟩ => ⟨S1024x1023x128, .f32⟩
  | .hbm, ⟨52, _⟩ => ⟨S1024x1023x128, .f32⟩
  | .hbm, ⟨53, _⟩ => ⟨S1024x1023x128, .f32⟩
  | .hbm, ⟨54, _⟩ => ⟨S1024x1023x64, .f32⟩
  | .hbm, ⟨55, _⟩ => ⟨S1x1x64, .f32⟩
  | .hbm, ⟨56, _⟩ => ⟨S1024x1023x64, .f32⟩
  | .hbm, ⟨57, _⟩ => ⟨S1024x1023x64, .f32⟩
  | .hbm, ⟨58, _⟩ => ⟨S_, .f32⟩
  | .hbm, ⟨59, _⟩ => ⟨S1024x64, .f32⟩
  | .hbm, ⟨60, _⟩ => ⟨S_, .f32⟩
  | .hbm, ⟨61, _⟩ => ⟨S1024x64, .f32⟩
  | .hbm, ⟨62, _⟩ => ⟨S1024x64, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_1 : Ref sig .tc := ⟨.hbm, 23, rfl⟩
abbrev main_call0_v5 : Ref sig .tc := ⟨.hbm, 24, rfl⟩
abbrev main_call0_v6 : Ref sig .tc := ⟨.hbm, 25, rfl⟩
abbrev main_call0_c_2 : Ref sig .tc := ⟨.hbm, 26, rfl⟩
abbrev main_call0_v7 : Ref sig .tc := ⟨.hbm, 27, rfl⟩
abbrev main_call0_v8 : Ref sig .tc := ⟨.hbm, 28, rfl⟩
abbrev main_call0_c_3 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_c_1 : Ref sig .tc := ⟨.hbm, 39, rfl⟩
abbrev main_v12 : Ref sig .tc := ⟨.hbm, 40, rfl⟩
abbrev main_v13 : Ref sig .tc := ⟨.hbm, 41, rfl⟩
abbrev main_c_2 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst : Ref sig .tc := ⟨.hbm, 58, rfl⟩
abbrev main_v29 : Ref sig .tc := ⟨.hbm, 59, rfl⟩
abbrev main_cst_3 : Ref sig .tc := ⟨.hbm, 60, rfl⟩
abbrev main_v30 : Ref sig .tc := ⟨.hbm, 61, rfl⟩
abbrev main_v31 : Ref sig .tc := ⟨.hbm, 62, rfl⟩

abbrev nD : Nat := 1
abbrev τ : Topo := Topo.v7x

variable {F : FTy → Type} [FloatOps F]

class Facts₀ : Prop where
  bcast_S1024_S1024x1_0 : S1024.BroadcastsInDim S1024x1 (![0] : Fin 1 → Fin S1024x1.rank)
  bcast_S_S1023 : S_.BroadcastsInDim S1023 (![] : Fin 0 → Fin S1023.rank)
  bcast_S1023_S1x1023_1 : S1023.BroadcastsInDim S1x1023 (![1] : Fin 1 → Fin S1x1023.rank)
  bcast_S1024x1_S1024x1023_0_1 : S1024x1.BroadcastsInDim S1024x1023 (![0, 1] : Fin 2 → Fin S1024x1023.rank)
  bcast_S1x1023_S1024x1023_0_1 : S1x1023.BroadcastsInDim S1024x1023 (![0, 1] : Fin 2 → Fin S1024x1023.rank)
  bcast_S_S1024x1023 : S_.BroadcastsInDim S1024x1023 (![] : Fin 0 → Fin S1024x1023.rank)
  bcast_S1024x64_S1024x1x64_0_2 : S1024x64.BroadcastsInDim S1024x1x64 (![0, 2] : Fin 2 → Fin S1024x1x64.rank)
  bcast_S1024x1x64_S1024x1023x64_0_1_2 : S1024x1x64.BroadcastsInDim S1024x1023x64 (![0, 1, 2] : Fin 3 → Fin S1024x1023x64.rank)
  bcast_S1024x1023_S1024x1023x1_0_1 : S1024x1023.BroadcastsInDim S1024x1023x1 (![0, 1] : Fin 2 → Fin S1024x1023x1.rank)
  concatenates_S1024x1023x64_S1024x1023x64_S1024x1023x128_d2 : Shape.Concatenates [S1024x1023x64, S1024x1023x64] S1024x1023x128 2
  bcast_S128_S1x1x128_2 : S128.BroadcastsInDim S1x1x128 (![2] : Fin 1 → Fin S1x1x128.rank)
  bcast_S1x1x128_S1024x1023x128_0_1_2 : S1x1x128.BroadcastsInDim S1024x1023x128 (![0, 1, 2] : Fin 3 → Fin S1024x1023x128.rank)
  bcast_S64_S1x1x64_2 : S64.BroadcastsInDim S1x1x64 (![2] : Fin 1 → Fin S1x1x64.rank)
  bcast_S1x1x64_S1024x1023x64_0_1_2 : S1x1x64.BroadcastsInDim S1024x1023x64 (![0, 1, 2] : Fin 3 → Fin S1024x1023x64.rank)
  reducesTo_S1024x1023x64_S1024x64_d1 : S1024x1023x64.ReducesTo [1] S1024x64
  h_S_ : 0 < S_.numel
  bcast_S_S1024x64 : S_.BroadcastsInDim S1024x64 (![] : Fin 0 → Fin S1024x64.rank)
  gather_S1024x64_S1024x1023x1_S1024x1023x64_2_0_n_n_0_2_164_wf : GatherDims.WF S1024x64 S1024x1023x1 S1024x1023x64 [2] [0] [] [0] [] 2 ![1, 64]
  dot_S1024x1023x128_S128x128_S1024x1023x128_2_0_01_1_n_n_wf : DotDims.WF S1024x1023x128 S128x128 S1024x1023x128 [2] [0] [0, 1] [1] [] []
  dot_S1024x1023x128_S128x64_S1024x1023x64_2_0_01_1_n_n_wf : DotDims.WF S1024x1023x128 S128x64 S1024x1023x64 [2] [0] [0, 1] [1] [] []

variable [Facts₀]

def gather_S1024x64_S1024x1023x1_S1024x1023x64_2_0_n_n_0_2_164 : GatherDims S1024x64 S1024x1023x1 S1024x1023x64 where
  offsetDims := [2]
  collapsedSliceDims := [0]
  operandBatchingDims := []
  startIndicesBatchingDims := []
  startIndexMap := [0]
  indexVectorDim := 2
  sliceSizes := ![1, 64]
  wf := gather_S1024x64_S1024x1023x1_S1024x1023x64_2_0_n_n_0_2_164_wf
def dot_S1024x1023x128_S128x128_S1024x1023x128_2_0_01_1_n_n : DotDims S1024x1023x128 S128x128 S1024x1023x128 where
  lhsContracting := [2]
  rhsContracting := [0]
  lhsNonContracting := [0, 1]
  rhsNonContracting := [1]
  lhsBatch := []
  rhsBatch := []
  wf := dot_S1024x1023x128_S128x128_S1024x1023x128_2_0_01_1_n_n_wf
def dot_S1024x1023x128_S128x64_S1024x1023x64_2_0_01_1_n_n : DotDims S1024x1023x128 S128x64 S1024x1023x64 where
  lhsContracting := [2]
  rhsContracting := [0]
  lhsNonContracting := [0, 1]
  rhsNonContracting := [1]
  lhsBatch := []
  rhsBatch := []
  wf := dot_S1024x1023x128_S128x64_S1024x1023x64_2_0_01_1_n_n_wf

class Facts : Prop extends Facts₀ where

variable [Facts]
-- ==== Proof.KerPieces.lean ====
/-
  What one grid point's body leaves behind, as values.

  The body keeps a running sum in a scratch block `S` (512 rows × 128 hidden units) across the 32 points of a row
  block. At the first point of a row block it clears `S`; at every point it adds, for each row `r` and hidden unit `h`,
  the sum over the point's 32 partner rows `q` of `tanh(a r h + b q h + b1 h)`; at the last point it also writes
  `S · W2` into the output block. Each case's stores cover the buffer they go to, so what a buffer holds afterwards is
  the last store's value: the accumulation step `k0_pay2` of the input blocks and of what `S` held before (the cleared
  block `k0_pay1` at a first point), and for the output the product `k0_pay3` of the new `S` and the `W2` block.
-/
import proofs.«126472_j77927886618998_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Cert.KernelIdeal Cert.KernelIdeal.Gen

namespace Cert.KernelIdeal.Pieces

variable {F : FTy → Type} [FloatOps F]

theorem hz : (![0, 0] : Fin 2 → Nat) = fun _ => 0 := funext fun a => by fin_cases a <;> rfl

/-- A middle point of a row block: the scratch ends at the accumulation step over what it held. -/
theorem sout_B (c : Dev nD) (i : grid0.Coords) (arg2 : Memref sig .tc .vmem S512x128 .f32) (harg2 : arg2.IsWhole) (arg3 : Memref sig .tc .vmem S32x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S512x64 .f32) (harg6 : arg6.IsWhole) (arg7 : Memref sig .tc .vmem S512x128 .f32) (harg7 : arg7.IsWhole) (hc0 : ¬cond0_0 i) (hc1 : ¬cond0_1 i) (x0 : Vec F S512x128 .f32) (x1 : Vec F S32x128 .f32) (x2 : Vec F S1x128 .f32) (x3 : Vec F S128x64 .f32) (xs0 : Vec F S512x128 .f32) :
    sout0_B_0 c i arg2 harg2 arg3 harg3 arg4 harg4 arg5 harg5 arg6 harg6 arg7 harg7 hc0 hc1 x0 x1 x2 x3 xs0 = k0_pay2 x0 x1 x2 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  rw [View.canon_unit_zero hz]
  simp only [View.readAt_eq_ld, harg2.read_unread, harg3.read_unread, harg4.read_unread, harg5.read_unread, harg7.read_unread,
    View.ld_unit_zero (S := S512x128) hz, View.ld_unit_zero (S := S32x128) hz, View.ld_unit_zero (S := S1x128) hz,
    View.ld_unit_zero (S := S128x64) hz]

/-- The last point of a row block: the scratch ends at the same accumulation step, -/
theorem sout_C (c : Dev nD) (i : grid0.Coords) (arg2 : Memref sig .tc .vmem S512x128 .f32) (harg2 : arg2.IsWhole) (arg3 : Memref sig .tc .vmem S32x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S512x64 .f32) (harg6 : arg6.IsWhole) (arg7 : Memref sig .tc .vmem S512x128 .f32) (harg7 : arg7.IsWhole) (hc0 : ¬cond0_0 i) (hc1 : cond0_1 i) (x0 : Vec F S512x128 .f32) (x1 : Vec F S32x128 .f32) (x2 : Vec F S1x128 .f32) (x3 : Vec F S128x64 .f32) (xs0 : Vec F S512x128 .f32) :
    sout0_C_0 c i arg2 harg2 arg3 harg3 arg4 harg4 arg5 harg5 arg6 harg6 arg7 harg7 hc0 hc1 x0 x1 x2 x3 xs0 = k0_pay2 x0 x1 x2 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg7.read_unread,
    View.ld_unit_zero (S := S512x128) hz, View.ld_unit_zero (S := S32x128) hz, View.ld_unit_zero (S := S1x128) hz,
    View.ld_unit_zero (S := S128x64) hz]

/-- and the output block at the product of that new scratch with the `W2` block. -/
theorem out_C (c : Dev nD) (i : grid0.Coords) (arg2 : Memref sig .tc .vmem S512x128 .f32) (harg2 : arg2.IsWhole) (arg3 : Memref sig .tc .vmem S32x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S512x64 .f32) (harg6 : arg6.IsWhole) (arg7 : Memref sig .tc .vmem S512x128 .f32) (harg7 : arg7.IsWhole) (hc0 : ¬cond0_0 i) (hc1 : cond0_1 i) (x0 : Vec F S512x128 .f32) (x1 : Vec F S32x128 .f32) (x2 : Vec F S1x128 .f32) (x3 : Vec F S128x64 .f32) (xs0 : Vec F S512x128 .f32) :
    out0_C_4 c i arg2 harg2 arg3 harg3 arg4 harg4 arg5 harg5 arg6 harg6 arg7 harg7 hc0 hc1 x0 x1 x2 x3 xs0 = k0_pay3 (k0_pay2 x0 x1 x2 xs0) x3 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz, View.readCov_unit_zero (S := S512x128) _ hz]
  simp only [View.readAt_eq_ld, harg2.read_unread, harg3.read_unread, harg4.read_unread, harg5.read_unread, harg7.read_unread,
    View.ld_unit_zero (S := S512x128) hz, View.ld_unit_zero (S := S32x128) hz, View.ld_unit_zero (S := S1x128) hz,
    View.ld_unit_zero (S := S128x64) hz]

/-- The first point of a row block: the scratch is cleared first, so it ends at the accumulation step over the
    cleared block. -/
theorem sout_A (c : Dev nD) (i : grid0.Coords) (arg2 : Memref sig .tc .vmem S512x128 .f32) (harg2 : arg2.IsWhole) (arg3 : Memref sig .tc .vmem S32x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S512x64 .f32) (harg6 : arg6.IsWhole) (arg7 : Memref sig .tc .vmem S512x128 .f32) (harg7 : arg7.IsWhole) (hc0 : cond0_0 i) (hc1 : ¬cond0_1 i) (x0 : Vec F S512x128 .f32) (x1 : Vec F S32x128 .f32) (x2 : Vec F S1x128 .f32) (x3 : Vec F S128x64 .f32) :
    sout0_A_0 c i arg2 harg2 arg3 harg3 arg4 harg4 arg5 harg5 arg6 harg6 arg7 harg7 hc0 hc1 x0 x1 x2 x3 = k0_pay2 x0 x1 x2 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S512x128) hz, View.readCov_unit_zero (S := S512x128) _ hz]
  simp only [View.readAt_eq_ld, harg2.read_unread, harg3.read_unread, harg4.read_unread, harg5.read_unread, harg7.read_unread,
    View.ld_unit_zero (S := S512x128) hz, View.ld_unit_zero (S := S32x128) hz, View.ld_unit_zero (S := S1x128) hz,
    View.ld_unit_zero (S := S128x64) hz]

end Cert.KernelIdeal.Pieces

end
-- ==== Proof.LibPlainDot.lean ====
/-
  A plain matrix product read at an index (program-independent; imports only the library).

  For the dimension numbers of an ordinary product of an `[M, K]` matrix by a `[K, N]` matrix — the left operand's
  second axis contracted with the right operand's first, no batch axis — the contraction index is one coordinate
  `k : Fin K`, the left operand is read at `(r, k)` and the right one at `(k, j)`. So at the ideal values both the
  kernel's matrix product into a zero accumulator and the host's general product are, at `(r, j)`, the sum over `k` of
  the products of the entries `(r, k)` and `(k, j)`.
-/
import Idealize.ShloMosaic.Lib.ValueIdx
import Idealize.ShloMosaic.PureOps.Ideal.Laws

noncomputable section

namespace Cert.PlainDot

open Idealize.ShloMosaic Idealize.ShloMosaic.ValueIdx

/-- The contraction index of a plain product is its one coordinate. -/
abbrev contrFin (M K N : ℕ) : (DotDims.plain M K N).contr.Idx ≃ Fin K :=
  contrEquiv1 (DotDims.plain M K N) K rfl rfl

/-- At output `(r, j)` and contraction coordinate `k` the left operand is read at `(r, k)`. -/
theorem lhsIdx_plain (M K N : ℕ) (r : Fin M) (j : Fin N) (k : Fin K) :
    (DotDims.plain M K N).lhsIdx (ix2 r j) ((contrFin M K N).symm k) = ix2 r k := by
  funext a; apply Fin.ext
  match a with
  | ⟨0, _⟩ => rfl
  | ⟨1, _⟩ =>
    refine ((DotDims.plain M K N).lhsIdx_val_of_single (cl := (1 : Fin 2)) rfl (ix2 r j) _).trans ?_
    exact contrEquiv1_symm_val (DotDims.plain M K N) K rfl rfl k

/-- At output `(r, j)` and contraction coordinate `k` the right operand is read at `(k, j)`. -/
theorem rhsIdx_plain (M K N : ℕ) (r : Fin M) (j : Fin N) (k : Fin K) :
    (DotDims.plain M K N).rhsIdx (ix2 r j) ((contrFin M K N).symm k) = ix2 k j := by
  funext a; apply Fin.ext
  match a with
  | ⟨0, _⟩ =>
    refine ((DotDims.plain M K N).rhsIdx_val_of_single (cr := (0 : Fin 2)) rfl (ix2 r j) _).trans ?_
    exact contrEquiv1_symm_val (DotDims.plain M K N) K rfl rfl k
  | ⟨1, _⟩ => rfl

/-- The contraction's sum of a plain product at `(r, j)`, over the coordinate `k`. -/
theorem sum_plain {M K N : ℕ} (L : (⟨2, ![M, K]⟩ : Shape).Idx → EReal) (R : (⟨2, ![K, N]⟩ : Shape).Idx → EReal)
    (r : Fin M) (j : Fin N) :
    (∑ q : (DotDims.plain M K N).contr.Idx,
        L ((DotDims.plain M K N).lhsIdx (ix2 r j) q) * R ((DotDims.plain M K N).rhsIdx (ix2 r j) q))
      = ∑ k : Fin K, L (ix2 r k) * R (ix2 k j) := by
  rw [← Equiv.sum_comp (contrFin M K N).symm]
  exact Finset.sum_congr rfl fun k _ => by rw [lhsIdx_plain, rhsIdx_plain]

/-- At the ideal values the kernel's matrix product into the zero accumulator, read at `(r, j)`. -/
theorem matmul_plain_apply {M K N : ℕ} {φ₁ φ₂ : FTy} (prec : Option ContractPrecision)
    (lhs : FVec Ideal ⟨2, ![M, K]⟩ φ₁) (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) :=
  (Ideal.matmul_constant_zero_apply _ prec lhs rhs (ix2 r j)).trans (sum_plain lhs rhs r j)

/-- At the ideal values the host's general product, read at `(r, j)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j)
      = ∑ k : Fin K, lhs (ix2 r k) * rhs (ix2 k j) :=
  (Ideal.dotGeneral_apply _ prec sched lhs rhs (ix2 r j)).trans (sum_plain lhs rhs r j)

end Cert.PlainDot

end
-- ==== Proof.KerPay.lean ====
/-
  The body's three stored values read at an entry, on the extended reals.

  * the cleared block is `0` everywhere;
  * the accumulation step at row `r`, hidden unit `u` is what the scratch held there plus the sum over the 32 partner
    rows `q` of the point of `tanh((a r u + b q u) + b1 u)` — the three operands are laid out as [512,1,128],
    [1,32,128] and [1,1,128], spread to [512,32,128], added, and summed along the middle axis;
  * the output block at row `r`, column `o` is `Σ_u S r u · W2 u o`: an ordinary matrix product into a zero block.
-/
import proofs.«126472_j77927886618998_1_alg».proof.Proof.Gen.KernelIdeal.Skeleton
import proofs.«126472_j77927886618998_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open Cert.KernelIdeal Cert.KernelIdeal.Gen

namespace Cert.KernelIdeal.Pay

/-- The cleared block. -/
theorem pay1_apply (r : Fin 512) (u : Fin 128) : k0_pay1 (F := Ideal) (ix2 r u) = 0 := by
  unfold k0_pay1
  rw [shapeCast_self]
  show Ideal.ofBits .f32 0x00000000#32 = 0
  exact Ideal.ofBits_zero_f32

/-- A row block [512,128] laid out as [512,1,128] and spread over the 32 partners reads the row's entry. -/
theorem spread_rows (v : FVec Ideal S512x128 .f32) (r : Fin 512) (q : Fin 32) (u : Fin 128) :
    broadcastTo S512x32x128 (shapeCast S512x1x128 v shapeCasts_S512x128_S512x1x128) broadcasts_S512x1x128_S512x32x128 (ix3 r q u)
      = v (ix2 r u) := by
  refine (broadcastTo_apply _ broadcasts_S512x1x128_S512x32x128 (ix3 r q u) (ix3 r (0 : Fin 1) u) (fun a => by
    match a with
    | ⟨0, _⟩ => rfl
    | ⟨1, _⟩ => rfl
    | ⟨2, _⟩ => rfl)).trans ?_
  refine shapeCast_apply v shapeCasts_S512x128_S512x1x128 _ (ix2 r u) ?_
  rw [Shape.rowMajor_val_two, Shape.rowMajor_val_three]
  show r.val * 128 + u.val = (r.val * 1 + 0) * 128 + u.val
  omega

/-- The partners' block [32,128] laid out as [1,32,128] and spread over the 512 rows reads the partner's entry. -/
theorem spread_partners (v : FVec Ideal S32x128 .f32) (r : Fin 512) (q : Fin 32) (u : Fin 128) :
    broadcastTo S512x32x128 (shapeCast S1x32x128 v shapeCasts_S32x128_S1x32x128) broadcasts_S1x32x128_S512x32x128 (ix3 r q u)
      = v (ix2 q u) := by
  refine (broadcastTo_apply _ broadcasts_S1x32x128_S512x32x128 (ix3 r q u) (ix3 (0 : Fin 1) q u) (fun a => by
    match a with
    | ⟨0, _⟩ => rfl
    | ⟨1, _⟩ => rfl
    | ⟨2, _⟩ => rfl)).trans ?_
  exact shapeCast_ab_1ab_apply v shapeCasts_S32x128_S1x32x128 (0 : Fin 1) q u

/-- The bias row [1,128], flattened to [128], laid out as [1,1,128] and spread reads the bias of the hidden unit. -/
theorem spread_bias (v : FVec Ideal S1x128 .f32) (r : Fin 512) (q : Fin 32) (u : Fin 128) :
    broadcastTo S512x32x128 (shapeCast S1x1x128 (shapeCast S128 v shapeCasts_S1x128_S128) shapeCasts_S128_S1x1x128)
        broadcasts_S1x1x128_S512x32x128 (ix3 r q u)
      = v (ix2 (0 : Fin 1) u) := by
  refine (broadcastTo_apply _ broadcasts_S1x1x128_S512x32x128 (ix3 r q u) (ix3 (0 : Fin 1) (0 : Fin 1) u) (fun a => by
    match a with
    | ⟨0, _⟩ => rfl
    | ⟨1, _⟩ => rfl
    | ⟨2, _⟩ => rfl)).trans ?_
  refine (shapeCast_apply _ shapeCasts_S128_S1x1x128 _ (ix1 u) ?_).trans (shapeCast_1a_a_apply v shapeCasts_S1x128_S128 u)
  rw [Shape.rowMajor_val_one, Shape.rowMajor_val_three]
  show u.val = (0 * 1 + 0) * 128 + u.val
  omega

/-- The index over `(r, u)` with the middle coordinate `q` put back. -/
theorem lift_mid (r : Fin 512) (u : Fin 128) (q : Fin 32) :
    reduces_S512x32x128_S512x128.lift (ix2 r u) q = ix3 r q u := by
  funext c
  apply Fin.ext
  match c with
  | ⟨0, _⟩ => rfl
  | ⟨1, _⟩ => rfl
  | ⟨2, _⟩ => rfl

/-- A sum along the middle axis of a [512,32,128] array. -/
theorem sum_mid (src : FVec Ideal S512x32x128 .f32) (hφ : FKind.Formats .f32)
    (hacc : (0x00000000#32 : BitVec 32) = FKind.add.neutral .f32 hφ) (r : Fin 512) (u : Fin 128) :
    multiReduction .add [1] S512x128 src 0x00000000#32 reduces_S512x32x128_S512x128 hφ hacc (ix2 r u)
      = ∑ q : Fin 32, src (ix3 r q u) := by
  refine (Ideal.multiReduction_add_single src 0x00000000#32 reduces_S512x32x128_S512x128 hφ hacc (ix2 r u)).trans ?_
  exact Finset.sum_congr rfl fun q _ => congrArg src (lift_mid r u q)

/-- The accumulation step. -/
theorem pay2_apply (v3 : Vec Ideal S512x128 .f32) (v5 : Vec Ideal S32x128 .f32) (v7 : Vec Ideal S1x128 .f32)
    (v18 : Vec Ideal S512x128 .f32) (r : Fin 512) (u : Fin 128) :
    k0_pay2 v3 v5 v7 v18 (ix2 r u)
      = v18 (ix2 r u) + ∑ q : Fin 32, Ideal.tanh ((v3 (ix2 r u) + v5 (ix2 q u)) + v7 (ix2 (0 : Fin 1) u)) := by
  unfold k0_pay2
  dsimp only
  rw [shapeCast_self, shapeCast_self, shapeCast_self]
  rw [addf_apply]
  refine congrArg (v18 (ix2 r u) + ·) ?_
  refine (sum_mid _ _ _ r u).trans ?_
  refine Finset.sum_congr rfl fun q _ => ?_
  show Ideal.tanh ((broadcastTo S512x32x128 _ _ (ix3 r q u) + broadcastTo S512x32x128 _ _ (ix3 r q u))
      + broadcastTo S512x32x128 _ _ (ix3 r q u)) = _
  rw [spread_rows, spread_partners, spread_bias]

/-- The printed dimension numbers of the output's product are those of an ordinary matrix product. -/
theorem dot_plain : dot_S512x128_S128x64_S512x64_1_0_0_1_n_n = DotDims.plain 512 128 64 := rfl

/-- The output block. -/
theorem pay3_apply (v27 : Vec Ideal S512x128 .f32) (v28 : Vec Ideal S128x64 .f32) (r : Fin 512) (o : Fin 64) :
    k0_pay3 v27 v28 (ix2 r o) = ∑ u : Fin 128, v27 (ix2 r u) * v28 (ix2 u o) := by
  unfold k0_pay3
  rw [dot_plain]
  exact Cert.PlainDot.matmul_plain_apply none v27 v28 r o

end Cert.KernelIdeal.Pay

end
-- ==== Proof.KerBlocks.lean ====
/-
  The input blocks of a grid point, entry by entry.

  Point `t` of the 2 × 32 grid works on row block `t / 32` (512 rows) and partner block `t % 32` (32 rows): entry
  `(r, u)` of the first window's block is entry `(512·(t/32) + r, u)` of its array, entry `(q, u)` of the second's is
  entry `(32·(t%32) + q, u)` of its array, and the bias row and the second-layer matrix are staged whole.
-/
import proofs.«126472_j77927886618998_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Cert.KernelIdeal Cert.KernelIdeal.Gen

namespace Cert.KernelIdeal.Blocks

variable {F : FTy → Type} [FloatOps F]
variable (m : (ℓ : Loc nD τ sig) → Buf (Elt F) ℓ)

/-- The printed index maps over the grid: windows 0 and 4 follow the row block, window 1 the partner block,
    windows 2 and 3 do not move. -/
theorem idx_facts : ∀ t : Fin cfg0.N,
    win0_0.index t (0 : Fin 2) = t.val / 32 ∧ win0_0.index t (1 : Fin 2) = 0
    ∧ win0_1.index t (0 : Fin 2) = t.val % 32 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 32 ∧ win0_4.index t (1 : Fin 2) = 0 :=
  (by decide +kernel : ∀ t : Fin grid0.N, _)

/-- The row block. -/
theorem iblk0_apply (c : Dev nD) (t : Fin cfg0.N) (r : Fin 512) (u : Fin 128) (i : Fin 1024)
    (hi : i.val = 512 * (t.val / 32) + r.val) :
    (iblk m c 0 t : Vec F S512x128 .f32) (ix2 r u) = V m c main_v2 (ix2 i u) := by
  unfold iblk
  rw [View.read_apply]
  show V m c main_v2 (((cfg0.win 0).blk t).view.emb (ix2 r u)) = V m c main_v2 (ix2 i u)
  refine congrArg (V m c main_v2) ?_
  obtain ⟨e0, e1, -⟩ := idx_facts t
  funext a; apply Fin.ext
  match a with
  | ⟨0, _⟩ => show win0_0.index t (0 : Fin 2) * 512 + 1 * r.val = i.val; omega
  | ⟨1, _⟩ => show win0_0.index t (1 : Fin 2) * 128 + 1 * u.val = u.val; omega

/-- The partner block. -/
theorem iblk1_apply (c : Dev nD) (t : Fin cfg0.N) (q : Fin 32) (u : Fin 128) (k : Fin 1024)
    (hk : k.val = 32 * (t.val % 32) + q.val) :
    (iblk m c 1 t : Vec F S32x128 .f32) (ix2 q u) = V m c main_v3 (ix2 k u) := by
  unfold iblk
  rw [View.read_apply]
  show V m c main_v3 (((cfg0.win 1).blk t).view.emb (ix2 q u)) = V m c main_v3 (ix2 k u)
  refine congrArg (V m c main_v3) ?_
  obtain ⟨-, -, e0, e1, -⟩ := idx_facts t
  funext a; apply Fin.ext
  match a with
  | ⟨0, _⟩ => show win0_1.index t (0 : Fin 2) * 32 + 1 * q.val = k.val; omega
  | ⟨1, _⟩ => show win0_1.index t (1 : Fin 2) * 128 + 1 * u.val = u.val; omega

/-- The bias row. -/
theorem iblk2_apply (c : Dev nD) (t : Fin cfg0.N) (z : Fin 1) (u : Fin 128) :
    (iblk m c 2 t : Vec F S1x128 .f32) (ix2 z u) = V m c main_v4 (ix2 z u) := by
  unfold iblk
  rw [View.read_apply]
  show V m c main_v4 (((cfg0.win 2).blk t).view.emb (ix2 z u)) = V m c main_v4 (ix2 z u)
  refine congrArg (V m c main_v4) ?_
  obtain ⟨-, -, -, -, e0, e1, -⟩ := idx_facts t
  funext a; apply Fin.ext
  match a with
  | ⟨0, _⟩ => show win0_2.index t (0 : Fin 2) * 1 + 1 * z.val = z.val; omega
  | ⟨1, _⟩ => show win0_2.index t (1 : Fin 2) * 128 + 1 * u.val = u.val; omega

/-- The second layer's matrix. -/
theorem iblk3_apply (c : Dev nD) (t : Fin cfg0.N) (u : Fin 128) (o : Fin 64) :
    (iblk m c 3 t : Vec F S128x64 .f32) (ix2 u o) = V m c main_arg3 (ix2 u o) := by
  unfold iblk
  rw [View.read_apply]
  show V m c main_arg3 (((cfg0.win 3).blk t).view.emb (ix2 u o)) = V m c main_arg3 (ix2 u o)
  refine congrArg (V m c main_arg3) ?_
  obtain ⟨-, -, -, -, -, -, e0, e1, -⟩ := idx_facts t
  funext a; apply Fin.ext
  match a with
  | ⟨0, _⟩ => show win0_3.index t (0 : Fin 2) * 128 + 1 * u.val = u.val; omega
  | ⟨1, _⟩ => show win0_3.index t (1 : Fin 2) * 64 + 1 * o.val = o.val; omega

end Cert.KernelIdeal.Blocks

end
-- ==== Proof.KerFold.lean ====
/-
  What the scratch and the output block hold after each grid point.

  Write `A`, `B` for the two [1024,128] arrays the region finds (a row's own half and a partner's half of the first
  layer) and `β` for the bias row. After the point `n` of the grid — row block `n / 32`, partner block `n % 32` — the
  scratch holds, at row `r` and hidden unit `u`, with `i = 512·(n/32) + r`,
      Σ_{kb ≤ n % 32} Σ_{q < 32} tanh((A i u + B (32·kb + q) u) + β u):
  the first point of a row block starts from the cleared scratch, every later point adds its partner block's term to
  what the point before left (an induction on the point), and at the last point of a row block the output block is the
  product of that full sum with the second layer's matrix.
-/
import proofs.«126472_j77927886618998_1_alg».proof.Proof.KerPieces
import proofs.«126472_j77927886618998_1_alg».proof.Proof.KerPay
import proofs.«126472_j77927886618998_1_alg».proof.Proof.KerBlocks

noncomputable section

open Idealize.ShloMosaic Idealize.ShloMosaic.TcCoe Idealize.SL.Sem Idealize.ShloMosaic.ValueIdx
open Cert.KernelIdeal Cert.KernelIdeal.Gen

namespace Cert.KernelIdeal.Fold

variable (m : (ℓ : Loc nD τ sig) → Buf (Elt Ideal) ℓ)

/-- Row `32·kb + q` of the partner array (read modulo 1024 so that it is defined for every `kb`). -/
def rowN (kb : ℕ) (q : Fin 32) : Fin 1024 := ⟨(32 * kb + q.val) % 1024, Nat.mod_lt _ (by norm_num)⟩

/-- One partner block's term. -/
def term (A B : FVec Ideal S1024x128 .f32) (β : FVec Ideal S1x128 .f32) (i : Fin 1024) (u : Fin 128) (kb : ℕ) : EReal :=
  ∑ q : Fin 32, Ideal.tanh ((A (ix2 i u) + B (ix2 (rowN kb q) u)) + β (ix2 (0 : Fin 1) u))

/-- The partial sum over the first `n` partner blocks. -/
def part (A B : FVec Ideal S1024x128 .f32) (β : FVec Ideal S1x128 .f32) (i : Fin 1024) (u : Fin 128) (n : ℕ) : EReal :=
  ∑ kb ∈ Finset.range n, term A B β i u kb

theorem part_succ (A B : FVec Ideal S1024x128 .f32) (β : FVec Ideal S1x128 .f32) (i : Fin 1024) (u : Fin 128) (n : ℕ) :
    part A B β i u (n + 1) = part A B β i u n + term A B β i u n := Finset.sum_range_succ _ _

theorem part_one (A B : FVec Ideal S1024x128 .f32) (β : FVec Ideal S1x128 .f32) (i : Fin 1024) (u : Fin 128) :
    part A B β i u 1 = term A B β i u 0 := by
  rw [part_succ]; show (∑ kb ∈ Finset.range 0, _) + _ = _; rw [Finset.range_zero, Finset.sum_empty, zero_add]

/-! ## What each case leaves, at the point's blocks -/

theorem scratch_A (c : Dev nD) (t : Fin cfg0.N) (h0 : t.val % 32 = 0) (h1 : ¬t.val % 32 = 31) :
    (outsAt0 m c t.val t.isLt).2 = k0_pay2 (iblk m c 0 t) (iblk m c 1 t) (iblk m c 2 t) (k0_pay1 (F := Ideal)) := by
  rw [outsAt0_A m c t h0 h1]
  exact Pieces.sout_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

theorem scratch_B (c : Dev nD) (t : Fin cfg0.N) (h0 : ¬t.val % 32 = 0) (h1 : ¬t.val % 32 = 31) :
    (outsAt0 m c t.val t.isLt).2 = k0_pay2 (iblk m c 0 t) (iblk m c 1 t) (iblk m c 2 t) (outsAt0 m c (t.val - 1) (Nat.lt_of_le_of_lt (Nat.sub_le _ _) t.isLt)).2 := by
  rw [outsAt0_B m c t h0 h1]
  exact Pieces.sout_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

theorem scratch_C (c : Dev nD) (t : Fin cfg0.N) (h0 : ¬t.val % 32 = 0) (h1 : t.val % 32 = 31) :
    (outsAt0 m c t.val t.isLt).2 = k0_pay2 (iblk m c 0 t) (iblk m c 1 t) (iblk m c 2 t) (outsAt0 m c (t.val - 1) (Nat.lt_of_le_of_lt (Nat.sub_le _ _) t.isLt)).2 := by
  rw [outsAt0_C m c t h0 h1]
  exact Pieces.sout_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

theorem output_C (c : Dev nD) (t : Fin cfg0.N) (h0 : ¬t.val % 32 = 0) (h1 : t.val % 32 = 31) :
    (outsAt0 m c t.val t.isLt).1 = k0_pay3 (k0_pay2 (iblk m c 0 t) (iblk m c 1 t) (iblk m c 2 t) (outsAt0 m c (t.val - 1) (Nat.lt_of_le_of_lt (Nat.sub_le _ _) t.isLt)).2) (iblk m c 3 t) := by
  rw [outsAt0_C m c t h0 h1]
  exact Pieces.out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

/-! ## One step, entry by entry -/

/-- The accumulation step at point `t` over scratch contents `xs`: `xs` plus the term of partner block `t % 32`. -/
theorem step_apply (c : Dev nD) (t : Fin cfg0.N) (xs : Vec Ideal S512x128 .f32) (r : Fin 512) (u : Fin 128) (i : Fin 1024)
    (hi : i.val = 512 * (t.val / 32) + r.val) :
    k0_pay2 (iblk m c 0 t) (iblk m c 1 t) (iblk m c 2 t) xs (ix2 r u)
      = xs (ix2 r u) + term (V m c main_v2) (V m c main_v3) (V m c main_v4) i u (t.val % 32) := by
  rw [Pay.pay2_apply]
  refine congrArg (xs (ix2 r u) + ·) ?_
  refine Finset.sum_congr rfl fun q _ => ?_
  have hq : (rowN (t.val % 32) q).val = 32 * (t.val % 32) + q.val := by
    show (32 * (t.val % 32) + q.val) % 1024 = _
    have := q.isLt; omega
  rw [Blocks.iblk0_apply m c t r u i hi, Blocks.iblk1_apply m c t q u (rowN (t.val % 32) q) hq, Blocks.iblk2_apply m c t 0 u]

/-! ## The scratch after every point -/

theorem scratch_eq (c : Dev nD) : ∀ (n : ℕ) (hn : n < cfg0.N) (r : Fin 512) (u : Fin 128) (i : Fin 1024),
    i.val = 512 * (n / 32) + r.val →
    (outsAt0 m c n hn).2 (ix2 r u) = part (V m c main_v2) (V m c main_v3) (V m c main_v4) i u (n % 32 + 1) := by
  intro n
  induction n with
  | zero =>
    intro hn r u i hi
    refine (congrFun (scratch_A m c ⟨0, hn⟩ (Nat.zero_mod 32) (show ¬(0 % 32 = 31) by decide)) (ix2 r u)).trans ?_
    rw [step_apply m c ⟨0, hn⟩ _ r u i hi, Pay.pay1_apply, zero_add]
    exact (part_one _ _ _ i u).symm
  | succ n ih =>
    intro hn r u i hi
    have hN : n + 1 < 64 := lt_of_lt_of_eq hn (show cfg0.N = 64 from N_0)
    by_cases h0 : (n + 1) % 32 = 0
    · have h1 : ¬(n + 1) % 32 = 31 := by omega
      refine (congrFun (scratch_A m c ⟨n + 1, hn⟩ h0 h1) (ix2 r u)).trans ?_
      rw [step_apply m c ⟨n + 1, hn⟩ _ r u i hi, Pay.pay1_apply, zero_add]
      show term _ _ _ i u ((n + 1) % 32) = _
      rw [h0]
      exact (part_one _ _ _ i u).symm
    · have hi' : i.val = 512 * (n / 32) + r.val := by omega
      have hm : (n + 1) % 32 = n % 32 + 1 := by omega
      have hstep : ∀ xs : Vec Ideal S512x128 .f32, xs = (outsAt0 m c n (Nat.lt_of_succ_lt hn)).2 →
          k0_pay2 (iblk m c 0 ⟨n + 1, hn⟩) (iblk m c 1 ⟨n + 1, hn⟩) (iblk m c 2 ⟨n + 1, hn⟩) xs (ix2 r u)
            = part (V m c main_v2) (V m c main_v3) (V m c main_v4) i u ((n + 1) % 32 + 1) := by
        intro xs hxs
        rw [step_apply m c ⟨n + 1, hn⟩ xs r u i hi, hxs, ih (Nat.lt_of_succ_lt hn) r u i hi']
        show _ + term _ _ _ i u ((n + 1) % 32) = _
        rw [hm]
        exact (part_succ _ _ _ i u (n % 32 + 1)).symm
      by_cases h1 : (n + 1) % 32 = 31
      · exact (congrFun (scratch_C m c ⟨n + 1, hn⟩ h0 h1) (ix2 r u)).trans (hstep _ rfl)
      · exact (congrFun (scratch_B m c ⟨n + 1, hn⟩ h0 h1) (ix2 r u)).trans (hstep _ rfl)

/-- At the last point of a row block the output block is the full sum contracted with the second layer. -/
theorem output_eq (c : Dev nD) (t : Fin cfg0.N) (h1 : t.val % 32 = 31) (r : Fin 512) (o : Fin 64) (i : Fin 1024)
    (hi : i.val = 512 * (t.val / 32) + r.val) :
    (outsAt0 m c t.val t.isLt).1 (ix2 r o)
      = ∑ u : Fin 128, part (V m c main_v2) (V m c main_v3) (V m c main_v4) i u 32 * V m c main_arg3 (ix2 u o) := by
  have h0 : ¬t.val % 32 = 0 := by omega
  refine (congrFun (output_C m c t h0 h1) (ix2 r o)).trans ?_
  rw [Pay.pay3_apply]
  refine Finset.sum_congr rfl fun u _ => ?_
  rw [Blocks.iblk3_apply m c t u o, ← congrFun (scratch_C m c t h0 h1) (ix2 r u), scratch_eq m c t.val t.isLt r u i hi, h1]

end Cert.KernelIdeal.Fold

end
-- ==== Proof.KerFinal.lean ====
/-
  The region's output array.

  Only the last point of each row block (points 31 and 63) writes the output block back: rows `512·b … 512·b + 511`
  of the [1024,64] array, for row block `b`. What it writes at row `i`, column `o` is `Σ_u (full sum over all 32
  partner blocks at (i,u)) · W2 u o`, one function `G` of the array's index; the two blocks cover the array, so the
  array ends holding `G`.
-/
import proofs.«126472_j77927886618998_1_alg».proof.Proof.KerFold

noncomputable section

open Idealize.ShloMosaic Idealize.ShloMosaic.TcCoe Idealize.SL.Sem Idealize.ShloMosaic.ValueIdx
open Idealize.ShloMosaic.Pipeline (Dat)
open Cert.KernelIdeal Cert.KernelIdeal.Gen

namespace Cert.KernelIdeal.Final

variable (m : (ℓ : Loc nD τ sig) → Buf (Elt Ideal) ℓ)

/-- The output array as one function of its index. -/
def G (c : Dev nD) : FVec Ideal S1024x64 .f32 := fun idx =>
  ∑ u : Fin 128, Fold.part (V m c main_v2) (V m c main_v3) (V m c main_v4) (idx 0) u 32 * V m c main_arg3 (ix2 u (idx 1))

theorem G_apply (c : Dev nD) (i : Fin 1024) (o : Fin 64) :
    G m c (ix2 i o) = ∑ u : Fin 128, Fold.part (V m c main_v2) (V m c main_v3) (V m c main_v4) i u 32 * V m c main_arg3 (ix2 u o) := rfl

/-- What a writing point writes back is its block of `G`. -/
theorem flushed_eq (c : Dev nD) (t : Fin cfg0.N) (hf : (cfg0.win 4).flush t = true) :
    (dats m 0 c).flushed 4 t = ((cfg0.win 4).blk t).view.read (Elt Ideal) (G m c) := by
  have h1 : t.val % 32 = 31 := (flush0_4 t).mp hf
  have hN : t.val < 64 := lt_of_lt_of_eq t.isLt (show cfg0.N = 64 from N_0)
  show (cfg0.win 4).cut (grid0.coords t) ((dats m 0 c).after 4 t) = _
  rw [after0_4]
  funext y
  obtain ⟨r, o, rfl⟩ : ∃ (r : Fin 512) (o : Fin 64), y = ix2 r o := ⟨y 0, y 1, eq_ix2 y⟩
  have hr := r.isLt
  show (outsAt0 m c t.val t.isLt).1 (ix2 r o) = G m c (((cfg0.win 4).blk t).view.emb (ix2 r o))
  have he : ((cfg0.win 4).blk t).view.emb (ix2 r o) = ix2 (⟨512 * (t.val / 32) + r.val, by omega⟩ : Fin 1024) o := by
    obtain ⟨-, -, -, -, -, -, -, -, e0, e1⟩ := Blocks.idx_facts t
    funext a; apply Fin.ext
    match a with
    | ⟨0, _⟩ => show win0_4.index t (0 : Fin 2) * 512 + 1 * r.val = 512 * (t.val / 32) + r.val; omega
    | ⟨1, _⟩ => show win0_4.index t (1 : Fin 2) * 64 + 1 * o.val = o.val; omega
  rw [he, G_apply]
  exact Fold.output_eq m c t h1 r o _ rfl

/-- An index of the array is in point `t`'s block iff each coordinate is in the block's range on its axis. -/
theorem mem_blk (t : Fin cfg0.N) (i : S1024x64.Idx) :
    i ∈ ((cfg0.win 4).blk t).view.set ↔ ∀ a : Fin 2, win0_4.index t a * S512x64.size a ≤ (i a).val ∧ (i a).val < win0_4.index t a * S512x64.size a + S512x64.size a := by
  show i ∈ ((View.whole main_v5).slice (win0_4.rect t)).set ↔ _
  rw [View.set_slice_whole, Rect.mem_set_unit]
  exact Iff.rfl

/-- Every index is in the block of the last point of its row block. -/
theorem cover (i : S1024x64.Idx) : ∃ t : Fin cfg0.N, (cfg0.win 4).flush t = true ∧ i ∈ ((cfg0.win 4).blk t).view.set := by
  have hi0 : (i 0).val < 1024 := (i 0).isLt
  have hi1 : (i 1).val < 64 := (i 1).isLt
  obtain ⟨t, ht⟩ : ∃ t : Fin cfg0.N, t.val = 32 * ((i 0).val / 512) + 31 :=
    ⟨⟨32 * ((i 0).val / 512) + 31, by show _ < grid0.N; rw [N_0]; omega⟩, rfl⟩
  refine ⟨t, (flush0_4 t).mpr (by omega), ?_⟩
  rw [mem_blk]
  obtain ⟨-, -, -, -, -, -, -, -, e0, e1⟩ := Blocks.idx_facts t
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 64 ≤ (i 1).val ∧ (i 1).val < win0_4.index t (1 : Fin 2) * 64 + 64
    omega

/-- The region's output array after the run. -/
theorem final (c : Dev nD) : (dats m 0 c).arrAt 4 cfg0.N = G m c :=
  (dats m 0 c).arrAt_eq_of_cover 4 (G m c) (flushed_eq m c) cover

end Cert.KernelIdeal.Final

end
-- ==== Proof.Spec.lean ====
/-
  The two programs as functions of the five argument arrays, entry by entry, on the extended reals.

  Data: `x` holds 1024 rows of 64 features; `W1` (128 × 128) is the first dense layer, its rows 0..63 acting on
  a row's own features and its rows 64..127 on the partner's; `b1` its bias; `W2` (128 × 64) and `b2` the second
  layer. For a row `i` and a partner row `k` the hidden pre-activation is
      pre i k h = (Σ_f x i f · W1 f h + Σ_f x k f · W1 (64+f) h) + b1 h.

  * `refVal` is the mean over the 1023 partners `i+1, …, i+1023` (mod 1024) of `tanh(pre) · W2 + b2`, written as the
    reference computes it: the pair's 128 features laid side by side and contracted with `W1` in one sum, the bias
    `b2` added inside the sum over partners, the sum divided by 1023.
  * `kerVal` is what the kernel computes: for ALL 1024 partners `k` (taken in 32 runs of 32) the sum of
    `tanh(pre)`, contracted with `W2` once per row; the partner `k = i` subtracted; the difference divided by 1023;
    `b2` added once.

  The two agree when every entry is finite (`law`, in `Law.lean`): `W2` moves across the finite sum over partners, the
  sum over all partners minus the term `k = i` is the sum over the 1023 others, which `j ↦ i + (j+1)` enumerates, and
  `1023 · b2 / 1023 = b2`.
-/
import Idealize.ShloMosaic.PureOps.Ideal
import Idealize.ShloMosaic.Lib.ValueIdx
import Mathlib.Algebra.BigOperators.Fin

noncomputable section

namespace Cert.Spec

open Idealize.ShloMosaic

/-- The divisor both programs use: the f32 word of 1023. -/
abbrev c1023 : EReal := Ideal.ofBits .f32 0x447FC000#32

/-- The `j`-th partner of row `i`: row `i + (j+1)` modulo 1024. -/
def partner (i : Fin 1024) (j : Fin 1023) : Fin 1024 := i + j.succ

/-- Row `32·kb + q`: position `q` of the `kb`-th run of 32 rows. -/
def rowOf (kb q : Fin 32) : Fin 1024 := ⟨32 * kb.val + q.val, by omega⟩

/-- A row's own half of the first layer: `Σ_f x i f · W1 f h`. -/
def own (x : Fin 1024 → Fin 64 → EReal) (W1 : Fin 128 → Fin 128 → EReal) (i : Fin 1024) (h : Fin 128) : EReal :=
  ∑ f : Fin 64, x i f * W1 ⟨f.val, by omega⟩ h

/-- The partner's half of the first layer: `Σ_f x k f · W1 (64+f) h`. -/
def other (x : Fin 1024 → Fin 64 → EReal) (W1 : Fin 128 → Fin 128 → EReal) (k : Fin 1024) (h : Fin 128) : EReal :=
  ∑ f : Fin 64, x k f * W1 ⟨64 + f.val, by omega⟩ h

/-- The hidden pre-activation of the pair (row `i`, partner row `k`), grouped as the kernel adds it. -/
def pre (x : Fin 1024 → Fin 64 → EReal) (W1 : Fin 128 → Fin 128 → EReal) (b1 : Fin 128 → EReal)
    (i k : Fin 1024) (h : Fin 128) : EReal :=
  (own x W1 i h + other x W1 k h) + b1 h

/-- The pair's 128 features side by side: the row's own 64, then the partner's 64. -/
def pairRow (x : Fin 1024 → Fin 64 → EReal) (i : Fin 1024) (j : Fin 1023) (f : Fin 128) : EReal :=
  if hf : f.val < 64 then x i ⟨f.val, hf⟩ else x (partner i j) ⟨f.val - 64, by omega⟩

/-- The reference's result at `(i, o)`. -/
def refVal (x : Fin 1024 → Fin 64 → EReal) (W1 : Fin 128 → Fin 128 → EReal) (b1 : Fin 128 → EReal)
    (W2 : Fin 128 → Fin 64 → EReal) (b2 : Fin 64 → EReal) (i : Fin 1024) (o : Fin 64) : EReal :=
  Ideal.div
    (∑ j : Fin 1023,
      ((∑ h : Fin 128, Ideal.tanh ((∑ f : Fin 128, pairRow x i j f * W1 f h) + b1 h) * W2 h o) + b2 o))
    c1023

/-- The kernel's accumulator for row `i`, hidden unit `h`: `tanh(pre)` summed over all 1024 partners, run by run. -/
def acc (x : Fin 1024 → Fin 64 → EReal) (W1 : Fin 128 → Fin 128 → EReal) (b1 : Fin 128 → EReal)
    (i : Fin 1024) (h : Fin 128) : EReal :=
  ∑ kb : Fin 32, ∑ q : Fin 32, Ideal.tanh (pre x W1 b1 i (rowOf kb q) h)

/-- The kernel's result at `(i, o)`. -/
def kerVal (x : Fin 1024 → Fin 64 → EReal) (W1 : Fin 128 → Fin 128 → EReal) (b1 : Fin 128 → EReal)
    (W2 : Fin 128 → Fin 64 → EReal) (b2 : Fin 64 → EReal) (i : Fin 1024) (o : Fin 64) : EReal :=
  Ideal.div
    ((∑ h : Fin 128, acc x W1 b1 i h * W2 h o) - ∑ h : Fin 128, Ideal.tanh (pre x W1 b1 i i h) * W2 h o)
    c1023
  + b2 o

/-- The five argument arrays read as functions of their coordinates. -/
abbrev xOf (x : FVec Ideal ⟨2, ![1024, 64]⟩ .f32) : Fin 1024 → Fin 64 → EReal := fun i f => x (ValueIdx.ix2 i f)
abbrev w1Of (W1 : FVec Ideal ⟨2, ![128, 128]⟩ .f32) : Fin 128 → Fin 128 → EReal := fun f h => W1 (ValueIdx.ix2 f h)
abbrev b1Of (b1 : FVec Ideal ⟨1, ![128]⟩ .f32) : Fin 128 → EReal := fun h => b1 (ValueIdx.ix1 h)
abbrev w2Of (W2 : FVec Ideal ⟨2, ![128, 64]⟩ .f32) : Fin 128 → Fin 64 → EReal := fun h o => W2 (ValueIdx.ix2 h o)
abbrev b2Of (b2 : FVec Ideal ⟨1, ![64]⟩ .f32) : Fin 64 → EReal := fun o => b2 (ValueIdx.ix1 o)

/-- The reference's whole result array as a function of the five argument arrays. -/
def refArr (x : FVec Ideal ⟨2, ![1024, 64]⟩ .f32) (W1 : FVec Ideal ⟨2, ![128, 128]⟩ .f32) (b1 : FVec Ideal ⟨1, ![128]⟩ .f32)
    (W2 : FVec Ideal ⟨2, ![128, 64]⟩ .f32) (b2 : FVec Ideal ⟨1, ![64]⟩ .f32) : FVec Ideal ⟨2, ![1024, 64]⟩ .f32 :=
  fun idx => refVal (xOf x) (w1Of W1) (b1Of b1) (w2Of W2) (b2Of b2) (idx 0) (idx 1)

/-- The kernel's whole result array as a function of the five argument arrays. -/
def kerArr (x : FVec Ideal ⟨2, ![1024, 64]⟩ .f32) (W1 : FVec Ideal ⟨2, ![128, 128]⟩ .f32) (b1 : FVec Ideal ⟨1, ![128]⟩ .f32)
    (W2 : FVec Ideal ⟨2, ![128, 64]⟩ .f32) (b2 : FVec Ideal ⟨1, ![64]⟩ .f32) : FVec Ideal ⟨2, ![1024, 64]⟩ .f32 :=
  fun idx => kerVal (xOf x) (w1Of W1) (b1Of b1) (w2Of W2) (b2Of b2) (idx 0) (idx 1)

theorem refArr_apply (x : FVec Ideal ⟨2, ![1024, 64]⟩ .f32) (W1 : FVec Ideal ⟨2, ![128, 128]⟩ .f32) (b1 : FVec Ideal ⟨1, ![128]⟩ .f32)
    (W2 : FVec Ideal ⟨2, ![128, 64]⟩ .f32) (b2 : FVec Ideal ⟨1, ![64]⟩ .f32) (i : Fin 1024) (o : Fin 64) :
    refArr x W1 b1 W2 b2 (ValueIdx.ix2 i o) = refVal (xOf x) (w1Of W1) (b1Of b1) (w2Of W2) (b2Of b2) i o := rfl

theorem kerArr_apply (x : FVec Ideal ⟨2, ![1024, 64]⟩ .f32) (W1 : FVec Ideal ⟨2, ![128, 128]⟩ .f32) (b1 : FVec Ideal ⟨1, ![128]⟩ .f32)
    (W2 : FVec Ideal ⟨2, ![128, 64]⟩ .f32) (b2 : FVec Ideal ⟨1, ![64]⟩ .f32) (i : Fin 1024) (o : Fin 64) :
    kerArr x W1 b1 W2 b2 (ValueIdx.ix2 i o) = kerVal (xOf x) (w1Of W1) (b1Of b1) (w2Of W2) (b2Of b2) i o := rfl

end Cert.Spec

end
-- ==== Proof.KerHost.lean ====
/-
  The kernel program's host side, entry by entry, at the ideal values.

  Before the region the host cuts the first layer W1 (128 × 128) into its upper 64 rows and its lower 64 rows and
  multiplies the data x (1024 × 64) by each: entry (i, u) of the first product is Σ_f x i f · W1 f u, the row's own
  half of the hidden pre-activation, and entry (k, u) of the second is Σ_f x k f · W1 (64+f) u, a partner's half.
  It also lays the bias b1 out as a single row.

  After the region the host forms, for every row i, the pre-activation of the pair (i, i) — own half plus partner
  half at the same row, plus the bias —, takes its tanh, contracts it with W2, subtracts the result from the
  region's output array, divides by 1023 and adds the bias b2.
-/
import proofs.«126472_j77927886618998_1_alg».proof.Proof.Gen.KernelIdeal.Frame
import proofs.«126472_j77927886618998_1_alg».proof.Proof.Spec
import proofs.«126472_j77927886618998_1_alg».proof.Proof.LibPlainDot
import Idealize.ShloMosaic.Lib.Pipeline.Value
import Idealize.ShloMosaic.Lib.ValueIdx
import Idealize.ShloMosaic.Lib.ValueLayout
import Idealize.ShloMosaic.Lib.StableHlo.Run

noncomputable section

open Cert.KernelIdeal Cert.KernelIdeal.Gen Idealize.ShloMosaic Idealize.ShloMosaic.ValueIdx Idealize.ShloMosaic.TcCoe
open Idealize.SL.Sem

namespace Cert.KernelIdeal.Host

/-! ### The operations over arbitrary arrays, read at an index -/

/-- The printed dimension numbers of the two first-layer products are those of an ordinary matrix product. -/
theorem dot1_plain : dot_S1024x64_S64x128_S1024x128_1_0_0_1_n_n = DotDims.plain 1024 64 128 := rfl

/-- The printed dimension numbers of the second-layer product are those of an ordinary matrix product. -/
theorem dot2_plain : dot_S1024x128_S128x64_S1024x64_1_0_0_1_n_n = DotDims.plain 1024 128 64 := rfl

/-- Entry (f, u) of the upper 64 rows of W is W at (f, u). -/
theorem slice_upper (W : FVec Ideal S128x128 .f32) (f : Fin 64) (u : Fin 128) :
    extractStridedSlice S64x128 ![0, 0] W slices_S128x128_S64x128_0_0 (ix2 f u) = W (ix2 ⟨f.val, by omega⟩ u) :=
  extractStridedSlice_apply ![0, 0] W slices_S128x128_S64x128_0_0 (ix2 f u) (ix2 ⟨f.val, by omega⟩ u) fun a =>
    match a with
    | ⟨0, _⟩ => by show f.val = 0 + f.val; omega
    | ⟨1, _⟩ => by show u.val = 0 + u.val; omega

/-- Entry (f, u) of the lower 64 rows of W is W at (64 + f, u). -/
theorem slice_lower (W : FVec Ideal S128x128 .f32) (f : Fin 64) (u : Fin 128) :
    extractStridedSlice S64x128 ![64, 0] W slices_S128x128_S64x128_64_0 (ix2 f u) = W (ix2 ⟨64 + f.val, by omega⟩ u) :=
  extractStridedSlice_apply ![64, 0] W slices_S128x128_S64x128_64_0 (ix2 f u) (ix2 ⟨64 + f.val, by omega⟩ u) fun a =>
    match a with
    | ⟨0, _⟩ => by show 64 + f.val = 64 + f.val; omega
    | ⟨1, _⟩ => by show u.val = 0 + u.val; omega

/-- The product of x with the upper rows of W1 is the row's own half of the pre-activation. -/
theorem dot_own (X : FVec Ideal S1024x64 .f32) (W : FVec Ideal S128x128 .f32) (i : Fin 1024) (u : Fin 128) :
    Host.dotGeneral dot_S1024x64_S64x128_S1024x128_1_0_0_1_n_n none X
        (extractStridedSlice S64x128 ![0, 0] W slices_S128x128_S64x128_0_0) (ix2 i u)
      = Cert.Spec.own (Cert.Spec.xOf X) (Cert.Spec.w1Of W) i u := by
  rw [dot1_plain]
  refine (Cert.PlainDot.dotGeneral_plain_apply none .single X _ i u).trans ?_
  unfold Cert.Spec.own
  exact Finset.sum_congr rfl fun f _ => congrArg (X (ix2 i f) * ·) (slice_upper W f u)

/-- The product of x with the lower rows of W1 is a partner's half of the pre-activation. -/
theorem dot_other (X : FVec Ideal S1024x64 .f32) (W : FVec Ideal S128x128 .f32) (k : Fin 1024) (u : Fin 128) :
    Host.dotGeneral dot_S1024x64_S64x128_S1024x128_1_0_0_1_n_n none X
        (extractStridedSlice S64x128 ![64, 0] W slices_S128x128_S64x128_64_0) (ix2 k u)
      = Cert.Spec.other (Cert.Spec.xOf X) (Cert.Spec.w1Of W) k u := by
  rw [dot1_plain]
  refine (Cert.PlainDot.dotGeneral_plain_apply none .single X _ k u).trans ?_
  unfold Cert.Spec.other
  exact Finset.sum_congr rfl fun f _ => congrArg (X (ix2 k f) * ·) (slice_lower W f u)

/-- The bias laid out as one row: entry (0, u) is entry u. -/
theorem row_of_bias (b : FVec Ideal S128 .f32) (z : Fin 1) (u : Fin 128) :
    shapeCast S1x128 b shapeCasts_S128_S1x128 (ix2 z u) = b (ix1 u) :=
  shapeCast_apply b shapeCasts_S128_S1x128 (ix2 z u) (ix1 u) (by
    rw [Shape.rowMajor_val_one, Shape.rowMajor_val_two]
    show u.val = z.val * 128 + u.val
    omega)

/-! ### The arrays the region finds -/

section Before

variable (m : (ℓ : Loc nD τ sig) → Buf (Elt Ideal) ℓ)

theorem V_v2_term (c : Dev nD) :
    (V m c main_v2 : FVec Ideal S1024x128 .f32)
      = Host.dotGeneral (F := Ideal) (φ₁ := .f32) (φ₂ := .f32) dot_S1024x64_S64x128_S1024x128_1_0_0_1_n_n none
          (m ((c : Thread nD τ).loc main_arg0) : FVec Ideal S1024x64 .f32)
          (extractStridedSlice (α := Ideal .f32) S64x128 ![0, 0] (m ((c : Thread nD τ).loc main_arg1) : FVec Ideal S128x128 .f32)
            slices_S128x128_S64x128_0_0) := by
  show StableHlo.after hostOps0 (fun b => m (c, b)) (Proc.devRef .tc main_v2) = _
  after_results

theorem V_v3_term (c : Dev nD) :
    (V m c main_v3 : FVec Ideal S1024x128 .f32)
      = Host.dotGeneral (F := Ideal) (φ₁ := .f32) (φ₂ := .f32) dot_S1024x64_S64x128_S1024x128_1_0_0_1_n_n none
          (m ((c : Thread nD τ).loc main_arg0) : FVec Ideal S1024x64 .f32)
          (extractStridedSlice (α := Ideal .f32) S64x128 ![64, 0] (m ((c : Thread nD τ).loc main_arg1) : FVec Ideal S128x128 .f32)
            slices_S128x128_S64x128_64_0) := by
  show StableHlo.after hostOps0 (fun b => m (c, b)) (Proc.devRef .tc main_v3) = _
  after_results

theorem V_v4_term (c : Dev nD) :
    (V m c main_v4 : FVec Ideal S1x128 .f32)
      = shapeCast (α := Ideal .f32) S1x128 (m ((c : Thread nD τ).loc main_arg2) : FVec Ideal S128 .f32) shapeCasts_S128_S1x128 := by
  show StableHlo.after hostOps0 (fun b => m (c, b)) (Proc.devRef .tc main_v4) = _
  after_results
  rfl

/-- The first product, as the region finds it: the row's own half. -/
theorem V_v2 (c : Dev nD) (i : Fin 1024) (u : Fin 128) :
    (V m c main_v2 : FVec Ideal S1024x128 .f32) (ix2 i u)
      = Cert.Spec.own (Cert.Spec.xOf (m ((c : Thread nD τ).loc main_arg0)))
          (Cert.Spec.w1Of (m ((c : Thread nD τ).loc main_arg1))) i u :=
  (congrFun (V_v2_term m c) (ix2 i u)).trans (dot_own _ _ i u)

/-- The second product, as the region finds it: a partner's half. -/
theorem V_v3 (c : Dev nD) (k : Fin 1024) (u : Fin 128) :
    (V m c main_v3 : FVec Ideal S1024x128 .f32) (ix2 k u)
      = Cert.Spec.other (Cert.Spec.xOf (m ((c : Thread nD τ).loc main_arg0)))
          (Cert.Spec.w1Of (m ((c : Thread nD τ).loc main_arg1))) k u :=
  (congrFun (V_v3_term m c) (ix2 k u)).trans (dot_other _ _ k u)

/-- The bias row, as the region finds it. -/
theorem V_v4 (c : Dev nD) (z : Fin 1) (u : Fin 128) :
    (V m c main_v4 : FVec Ideal S1x128 .f32) (ix2 z u) = m ((c : Thread nD τ).loc main_arg2) (ix1 u) :=
  (congrFun (V_v4_term m c) (ix2 z u)).trans (row_of_bias _ z u)

end Before

/-! ### The lines after the region -/

theorem hostDivf_apply {s : Shape} {φ : FTy} (a b : FVec Ideal s φ) (i : s.Idx) :
    Host.divf a b i = Ideal.div (a i) (b i) := rfl

theorem hostTanh_apply {s : Shape} {φ : FTy} (a : FVec Ideal s φ) (i : s.Idx) :
    Host.tanh a i = Ideal.tanh (a i) := rfl

/-- The bias b1 spread over the rows: entry (i, u) is entry u. -/
theorem spread_b1 (B1 : FVec Ideal S128 .f32) (i : Fin 1024) (u : Fin 128) :
    broadcastInDim S1024x128 ![0, 1] bcast_S1x128_S1024x128_0_1 (broadcastInDim S1x128 ![1] bcast_S128_S1x128_1 B1) (ix2 i u)
      = B1 (ix1 u) :=
  (broadcastInDim_apply ![0, 1] bcast_S1x128_S1024x128_0_1 _ (ix2 i u) (ix2 (0 : Fin 1) u) fun a =>
    match a with
    | ⟨0, _⟩ => rfl
    | ⟨1, _⟩ => rfl).trans
  (broadcastInDim_apply ![1] bcast_S128_S1x128_1 B1 (ix2 (0 : Fin 1) u) (ix1 u) fun a =>
    match a with
    | ⟨0, _⟩ => rfl)

/-- The bias b2 spread over the rows: entry (i, o) is entry o. -/
theorem spread_b2 (B2 : FVec Ideal S64 .f32) (i : Fin 1024) (o : Fin 64) :
    broadcastInDim S1024x64 ![0, 1] bcast_S1x64_S1024x64_0_1 (broadcastInDim S1x64 ![1] bcast_S64_S1x64_1 B2) (ix2 i o)
      = B2 (ix1 o) :=
  (broadcastInDim_apply ![0, 1] bcast_S1x64_S1024x64_0_1 _ (ix2 i o) (ix2 (0 : Fin 1) o) fun a =>
    match a with
    | ⟨0, _⟩ => rfl
    | ⟨1, _⟩ => rfl).trans
  (broadcastInDim_apply ![1] bcast_S64_S1x64_1 B2 (ix2 (0 : Fin 1) o) (ix1 o) fun a =>
    match a with
    | ⟨0, _⟩ => rfl)

/-- The divisor spread over the whole array. -/
theorem spread_const (i : Fin 1024) (o : Fin 64) :
    broadcastInDim S1024x64 ![] bcast_S_S1024x64 (constant (F := Ideal) S_ .f32 0x447FC000#32) (ix2 i o)
      = Cert.Spec.c1023 := rfl

/-- The second-layer product at (i, o). -/
theorem dot2_apply (T : FVec Ideal S1024x128 .f32) (W2 : FVec Ideal S128x64 .f32) (i : Fin 1024) (o : Fin 64) :
    Host.dotGeneral dot_S1024x128_S128x64_S1024x64_1_0_0_1_n_n none T W2 (ix2 i o)
      = ∑ u : Fin 128, T (ix2 i u) * W2 (ix2 u o) := by
  rw [dot2_plain]
  exact Cert.PlainDot.dotGeneral_plain_apply none .single T W2 i o

/-- The host's lines after the region as one function of the arrays they read: the region's output P, the two
    first-layer products A2 and A3, the biases and W2. -/
def tailFn (P : FVec Ideal S1024x64 .f32) (A2 A3 : FVec Ideal S1024x128 .f32) (B1 : FVec Ideal S128 .f32)
    (W2 : FVec Ideal S128x64 .f32) (B2 : FVec Ideal S64 .f32) : FVec Ideal S1024x64 .f32 :=
  addf
    (Host.divf
      (subf P
        (Host.dotGeneral dot_S1024x128_S128x64_S1024x64_1_0_0_1_n_n none
          (Host.tanh (addf (addf A2 A3)
            (broadcastInDim S1024x128 ![0, 1] bcast_S1x128_S1024x128_0_1
              (broadcastInDim S1x128 ![1] bcast_S128_S1x128_1 B1))))
          W2))
      (broadcastInDim S1024x64 ![] bcast_S_S1024x64 (constant (F := Ideal) S_ .f32 0x447FC000#32)))
    (broadcastInDim S1024x64 ![0, 1] bcast_S1x64_S1024x64_0_1 (broadcastInDim S1x64 ![1] bcast_S64_S1x64_1 B2))

/-- That function at (i, o): the output entry minus the contraction with W2 of tanh of the pair (i, i)'s
    pre-activation, divided by 1023, plus b2. -/
theorem tailFn_apply (P : FVec Ideal S1024x64 .f32) (A2 A3 : FVec Ideal S1024x128 .f32) (B1 : FVec Ideal S128 .f32)
    (W2 : FVec Ideal S128x64 .f32) (B2 : FVec Ideal S64 .f32) (i : Fin 1024) (o : Fin 64) :
    tailFn P A2 A3 B1 W2 B2 (ix2 i o)
      = Ideal.div (P (ix2 i o)
            - ∑ u : Fin 128, Ideal.tanh ((A2 (ix2 i u) + A3 (ix2 i u)) + B1 (ix1 u)) * W2 (ix2 u o)) Cert.Spec.c1023
          + B2 (ix1 o) := by
  unfold tailFn
  rw [addf_apply, hostDivf_apply, subf_apply, spread_b2, spread_const, dot2_apply]
  refine congrArg (fun s => Ideal.div (P (ix2 i o) - s) Cert.Spec.c1023 + B2 (ix1 o)) ?_
  refine Finset.sum_congr rfl fun u _ => ?_
  rw [hostTanh_apply, addf_apply, addf_apply, spread_b1]

/-- The same when the two products are the own half and the partner's half of the first layer: the term subtracted
    is the pair (i, i)'s. -/
theorem tailFn_spec (P : FVec Ideal S1024x64 .f32) (A2 A3 : FVec Ideal S1024x128 .f32) (B1 : FVec Ideal S128 .f32)
    (W2 : FVec Ideal S128x64 .f32) (B2 : FVec Ideal S64 .f32) (X : FVec Ideal S1024x64 .f32)
    (W : FVec Ideal S128x128 .f32) (i : Fin 1024) (o : Fin 64)
    (h2 : ∀ u : Fin 128, A2 (ix2 i u) = Cert.Spec.own (Cert.Spec.xOf X) (Cert.Spec.w1Of W) i u)
    (h3 : ∀ u : Fin 128, A3 (ix2 i u) = Cert.Spec.other (Cert.Spec.xOf X) (Cert.Spec.w1Of W) i u) :
    tailFn P A2 A3 B1 W2 B2 (ix2 i o)
      = Ideal.div (P (ix2 i o)
            - ∑ u : Fin 128, Ideal.tanh (Cert.Spec.pre (Cert.Spec.xOf X) (Cert.Spec.w1Of W) (Cert.Spec.b1Of B1) i i u)
              * W2 (ix2 u o)) Cert.Spec.c1023
          + B2 (ix1 o) := by
  rw [tailFn_apply]
  have hs : ∀ u : Fin 128, (A2 (ix2 i u) + A3 (ix2 i u)) + B1 (ix1 u)
      = Cert.Spec.pre (Cert.Spec.xOf X) (Cert.Spec.w1Of W) (Cert.Spec.b1Of B1) i i u := fun u => by
    rw [h2, h3]; rfl
  simp only [hs]

section After

variable (m : (ℓ : Loc nD τ sig) → Buf (Elt Ideal) ℓ)

/-- What the lines after the region find in each buffer: the pipeline's arrays as the region left them, every other
    buffer as the region found it. -/
abbrev WA (c : Dev nD) : Valuation τ sig (Elt Ideal) :=
  Pipeline.withArrays (cfgs 0).spec c (V0 m c) fun w => (dats m 0 c).arrAt w (cfgs 0).N

theorem tail_term (c : Dev nD) :
    (Pipeline.afterTail₀ cfgs (dats m) 0 (V0 m) [hostOps1] c main_v17 : FVec Ideal S1024x64 .f32)
      = tailFn (WA m c (Proc.devRef .tc main_v5)) (WA m c (Proc.devRef .tc main_v2)) (WA m c (Proc.devRef .tc main_v3))
          (WA m c (Proc.devRef .tc main_arg2)) (WA m c (Proc.devRef .tc main_arg3)) (WA m c (Proc.devRef .tc main_arg4)) := by
  unfold Pipeline.afterTail₀
  show StableHlo.after hostOps1 _ (Proc.devRef .tc main_v17) = _
  after_results
  try rfl

end After

section Tail

variable (m : (ℓ : Loc nD τ sig) → Buf (Elt Ideal) ℓ)

/-- The first product is an input window's array: the lines after the region find it as the region found it. -/
theorem WA_v2 (c : Dev nD) : WA m c (Proc.devRef .tc main_v2) = V m c main_v2 :=
  (Pipeline.withArrays_arr spec0 launch0.win.arr_inj c _ _ 0).trans
    (((dats m 0 c).arrAt_in 0 rfl _).trans (A_eq m c 0))

/-- Likewise the second product. -/
theorem WA_v3 (c : Dev nD) : WA m c (Proc.devRef .tc main_v3) = V m c main_v3 :=
  (Pipeline.withArrays_arr spec0 launch0.win.arr_inj c _ _ 1).trans
    (((dats m 0 c).arrAt_in 1 rfl _).trans (A_eq m c 1))

/-- W2 is an input window's array, and no line before the region writes it. -/
theorem WA_arg3 (c : Dev nD) : WA m c (Proc.devRef .tc main_arg3) = m ((c : Thread nD τ).loc main_arg3) :=
  (Pipeline.withArrays_arr spec0 launch0.win.arr_inj c _ _ 3).trans
    (((dats m 0 c).arrAt_in 3 rfl _).trans ((A_eq m c 3).trans (V_main_arg3 m c)))

/-- The region's output array, as the region left it. -/
theorem WA_v5 (c : Dev nD) : WA m c (Proc.devRef .tc main_v5) = (dats m 0 c).arrAt 4 cfg0.N :=
  Pipeline.withArrays_arr spec0 launch0.win.arr_inj c _ _ 4

/-- b1 is no window's array, and no line before the region writes it. -/
theorem WA_arg2 (c : Dev nD) : WA m c (Proc.devRef .tc main_arg2) = m ((c : Thread nD τ).loc main_arg2) :=
  (Pipeline.withArrays_of_ne _ c (V0 m c) _ main_arg2
    (by exact (by decide : ∀ w, Pipeline.arrRef spec0 w ≠ main_arg2))).trans (V_main_arg2 m c)

/-- Likewise b2. -/
theorem WA_arg4 (c : Dev nD) : WA m c (Proc.devRef .tc main_arg4) = m ((c : Thread nD τ).loc main_arg4) :=
  (Pipeline.withArrays_of_ne _ c (V0 m c) _ main_arg4
    (by exact (by decide : ∀ w, Pipeline.arrRef spec0 w ≠ main_arg4))).trans (V_main_arg4 m c)

/-- The lines after the region, over the arrays named: the region's output as it left it, the two products as it
    found them, and the arguments as launched. -/
theorem tail_eq_tailFn (c : Dev nD) :
    (Pipeline.afterTail₀ cfgs (dats m) 0 (V0 m) [hostOps1] c main_v17 : FVec Ideal S1024x64 .f32)
      = tailFn ((dats m 0 c).arrAt 4 cfg0.N) (V m c main_v2) (V m c main_v3) (m ((c : Thread nD τ).loc main_arg2))
          (m ((c : Thread nD τ).loc main_arg3)) (m ((c : Thread nD τ).loc main_arg4)) :=
  (tail_term m c).trans
    (congr (congr (congr (congr (congr (congrArg tailFn (WA_v5 m c)) (WA_v2 m c)) (WA_v3 m c)) (WA_arg2 m c))
      (WA_arg3 m c)) (WA_arg4 m c))

/-- The program's result at (i, o), for the region's output array P: the entry of P minus the pair (i, i)'s term,
    over 1023, plus b2. -/
theorem tail_of (c : Dev nD) (P : FVec Ideal S1024x64 .f32) (hP : (dats m 0 c).arrAt 4 cfg0.N = P)
    (i : Fin 1024) (o : Fin 64) :
    (Pipeline.afterTail₀ cfgs (dats m) 0 (V0 m) [hostOps1] c main_v17 : FVec Ideal S1024x64 .f32) (ix2 i o)
      = Ideal.div (P (ix2 i o)
            - ∑ u : Fin 128, Ideal.tanh (Cert.Spec.pre (Cert.Spec.xOf (m ((c : Thread nD τ).loc main_arg0)))
                (Cert.Spec.w1Of (m ((c : Thread nD τ).loc main_arg1))) (Cert.Spec.b1Of (m ((c : Thread nD τ).loc main_arg2))) i i u)
              * m ((c : Thread nD τ).loc main_arg3) (ix2 u o))
          Cert.Spec.c1023
        + m ((c : Thread nD τ).loc main_arg4) (ix1 o) := by
  subst hP
  refine (congrFun (tail_eq_tailFn m c) (ix2 i o)).trans ?_
  exact tailFn_spec _ _ _ _ _ _ (m ((c : Thread nD τ).loc main_arg0)) (m ((c : Thread nD τ).loc main_arg1)) i o
    (fun u => V_v2 m c i u) (fun u => V_v3 m c i u)

/-- The region's output array after the run, at its literal type. -/
abbrev outArr (c : Dev nD) : FVec Ideal S1024x64 .f32 := (dats m 0 c).arrAt 4 cfg0.N

/-- The program's result at (i, o): the region's output entry minus the pair (i, i)'s term, over 1023, plus b2. -/
theorem tail (c : Dev nD) (i : Fin 1024) (o : Fin 64) :
    (Pipeline.afterTail₀ cfgs (dats m) 0 (V0 m) [hostOps1] c main_v17 : FVec Ideal S1024x64 .f32) (ix2 i o)
      = Ideal.div (outArr m c (ix2 i o)
            - ∑ u : Fin 128, Ideal.tanh (Cert.Spec.pre (Cert.Spec.xOf (m ((c : Thread nD τ).loc main_arg0)))
                (Cert.Spec.w1Of (m ((c : Thread nD τ).loc main_arg1))) (Cert.Spec.b1Of (m ((c : Thread nD τ).loc main_arg2))) i i u)
              * m ((c : Thread nD τ).loc main_arg3) (ix2 u o))
          Cert.Spec.c1023
        + m ((c : Thread nD τ).loc main_arg4) (ix1 o) :=
  tail_of m c (outArr m c) rfl i o

end Tail

end Cert.KernelIdeal.Host

end
-- ==== Proof.KerValue.lean ====
/-
  The kernel program's result, as the specification's function of the five argument arrays.

  The region's output array is `Σ_u (sum of tanh(pre) over all 1024 partners, run by run) · W2`, where the two
  [1024,128] arrays the region reads are the two halves of the first layer computed before it and the bias row is `b1`;
  the operations after the region subtract the partner `k = i`, divide by 1023 and add `b2`: the specification's
  `kerVal`.
-/
import proofs.«126472_j77927886618998_1_alg».proof.Proof.KerFinal
import proofs.«126472_j77927886618998_1_alg».proof.Proof.KerHost
import proofs.«126472_j77927886618998_1_alg».proof.Proof.Spec

noncomputable section

open Idealize.ShloMosaic Idealize.ShloMosaic.TcCoe Idealize.SL.Sem Idealize.ShloMosaic.ValueIdx
open Idealize.ShloMosaic.Pipeline (Dat)
open Cert.KernelIdeal Cert.KernelIdeal.Gen

namespace Cert.KernelIdeal.Value

variable (m : (ℓ : Loc nD τ sig) → Buf (Elt Ideal) ℓ) (ρ : Dev nD → PrngReg)

/-- The full sum over the 32 partner blocks is the specification's accumulator. -/
theorem part_eq_acc (c : Dev nD) (i : Fin 1024) (u : Fin 128) :
    Fold.part (V m c main_v2) (V m c main_v3) (V m c main_v4) i u 32
      = Cert.Spec.acc (Cert.Spec.xOf (m ((c : Thread nD τ).loc main_arg0))) (Cert.Spec.w1Of (m ((c : Thread nD τ).loc main_arg1))) (Cert.Spec.b1Of (m ((c : Thread nD τ).loc main_arg2))) i u := by
  unfold Fold.part Cert.Spec.acc
  rw [Finset.sum_range]
  refine Finset.sum_congr rfl fun kb _ => ?_
  unfold Fold.term
  refine Finset.sum_congr rfl fun q _ => ?_
  have hrow : Fold.rowN kb.val q = Cert.Spec.rowOf kb q :=
    Fin.ext (by show (32 * kb.val + q.val) % 1024 = 32 * kb.val + q.val; have := kb.isLt; have := q.isLt; omega)
  rw [hrow, Host.V_v2, Host.V_v3, Host.V_v4]
  rfl

/-- The program's result at an entry. -/
theorem out_apply (c : Dev nD) (i : Fin 1024) (o : Fin 64) :
    (Pipeline.afterTail₀ cfgs (dats m) 0 (V0 m) [hostOps1] c main_v17 : FVec Ideal S1024x64 .f32) (ix2 i o)
      = Cert.Spec.kerVal (Cert.Spec.xOf (m ((c : Thread nD τ).loc main_arg0))) (Cert.Spec.w1Of (m ((c : Thread nD τ).loc main_arg1))) (Cert.Spec.b1Of (m ((c : Thread nD τ).loc main_arg2)))
          (Cert.Spec.w2Of (m ((c : Thread nD τ).loc main_arg3))) (Cert.Spec.b2Of (m ((c : Thread nD τ).loc main_arg4))) i o := by
  rw [Host.tail_of m c (Final.G m c) (Final.final m c) i o, Final.G_apply]
  have hs : (∑ u : Fin 128, Fold.part (V m c main_v2) (V m c main_v3) (V m c main_v4) i u 32 * V m c main_arg3 (ix2 u o))
      = ∑ u : Fin 128, Cert.Spec.acc (Cert.Spec.xOf (m ((c : Thread nD τ).loc main_arg0))) (Cert.Spec.w1Of (m ((c : Thread nD τ).loc main_arg1))) (Cert.Spec.b1Of (m ((c : Thread nD τ).loc main_arg2))) i u
          * Cert.Spec.w2Of (m ((c : Thread nD τ).loc main_arg3)) u o :=
    Finset.sum_congr rfl fun u _ => by rw [part_eq_acc, V_main_arg3]
  rw [hs]
  rfl

/-- The program's whole result array. -/
theorem out_eq (c : Dev nD) :
    (Pipeline.afterTail₀ cfgs (dats m) 0 (V0 m) [hostOps1] c main_v17 : FVec Ideal S1024x64 .f32)
      = Cert.Spec.kerArr (m ((c : Thread nD τ).loc main_arg0)) (m ((c : Thread nD τ).loc main_arg1)) (m ((c : Thread nD τ).loc main_arg2)) (m ((c : Thread nD τ).loc main_arg3)) (m ((c : Thread nD τ).loc main_arg4)) := by
  funext idx
  obtain ⟨i, o, rfl⟩ : ∃ (i : Fin 1024) (o : Fin 64), idx = ix2 i o := ⟨idx 0, idx 1, eq_ix2 idx⟩
  rw [Cert.Spec.kerArr_apply]
  exact out_apply m c i o

/-- Every weakly fair execution of the kernel program terminates with its result at the specification's function
    of the argument arrays, the arguments unchanged. -/
theorem run : θ_run defs (onTc (τ := τ) (main (F := Ideal))) ⟨m, fun _ => 0, ρ⟩ fun r => ∀ c : Dev nD,
      r.2.mem ((c.tc : Thread nD τ).loc main_v17)
        = Cert.Spec.kerArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v17 (Pipeline.mem_restRefs_of main_v17 (by decide) (by decide))).trans (out_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.Value

end
-- ==== Proof.RefRun.lean ====
/-
  The reference program's @main as one straight line of host operations, and its run.

  @main calls @remainder once, and @remainder calls @_where once; a call means the callee's body on the operands,
  each value of the body in a buffer of its own (the call's record). Substituting the two bodies at their call
  sites gives fifty-eight operations in program order: @main's eleven that build the table of sums
  `i + (1 + j)`, @remainder's twenty around @_where's single select, and @main's remaining twenty-six
  (the row broadcast, the index fix-up, the gather, the concatenation, the two dense layers, the sum over the
  partner axis and the division). Every weakly fair execution then ends with each buffer at the fold of those
  operations over the launch contents.
-/
import proofs.«126472_j77927886618998_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-- The fifty-eight operations in order. Operations 12–32 are @remainder's body over the record `main_call0`
    with the table of sums (`main_v8`) and the constant 1024 (`main_c_0`) as its arguments; operation 16 among
    them is @_where's select over the record `main_call0.call0`. -/
abbrev ops : List (HloOp τ sig (Elt F)) :=
  [ nullary main_v0 (iotaInDim S1024 32 0),
    unary main_v0 main_v1 (broadcastInDim S1024x1 ![0] bcast_S1024_S1024x1_0 : (⟨S1024, .i32⟩ : BufTy).Contents (Elt F) → (⟨S1024x1, .i32⟩ : BufTy).Contents (Elt F)),
    nullary main_v2 (iotaInDim S1023 32 0),
    nullary main_c (constantI S_ 32 1#32),
    unary main_c main_v3 (broadcastInDim S1023 ![] bcast_S_S1023 : (⟨S_, .i32⟩ : BufTy).Contents (Elt F) → (⟨S1023, .i32⟩ : BufTy).Contents (Elt F)),
    binary main_v3 main_v2 main_v4 (addi : (⟨S1023, .i32⟩ : BufTy).Contents (Elt F) → (⟨S1023, .i32⟩ : BufTy).Contents (Elt F) → (⟨S1023, .i32⟩ : BufTy).Contents (Elt F)),
    unary main_v4 main_v5 (broadcastInDim S1x1023 ![1] bcast_S1023_S1x1023_1 : (⟨S1023, .i32⟩ : BufTy).Contents (Elt F) → (⟨S1x1023, .i32⟩ : BufTy).Contents (Elt F)),
    unary main_v1 main_v6 (broadcastInDim S1024x1023 ![0, 1] bcast_S1024x1_S1024x1023_0_1 : (⟨S1024x1, .i32⟩ : BufTy).Contents (Elt F) → (⟨S1024x1023, .i32⟩ : BufTy).Contents (Elt F)),
    unary main_v5 main_v7 (broadcastInDim S1024x1023 ![0, 1] bcast_S1x1023_S1024x1023_0_1 : (⟨S1x1023, .i32⟩ : BufTy).Contents (Elt F) → (⟨S1024x1023, .i32⟩ : BufTy).Contents (Elt F)),
    binary main_v6 main_v7 main_v8 (addi : (⟨S1024x1023, .i32⟩ : BufTy).Contents (Elt F) → (⟨S1024x1023, .i32⟩ : BufTy).Contents (Elt F) → (⟨S1024x1023, .i32⟩ : BufTy).Contents (Elt F)),
    nullary main_c_0 (constantI S_ 32 1024#32),
    TRef.unary (.of main_c_0) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S1024x1023 ![] bcast_S_S1024x1023),
    TRef.binary (.of main_v8) main_call0.v3 main_call0.v4 Host.remsi,
    TRef.nullary main_call0.c_1 (constantI S_ 32 0#32),
    TRef.unary main_call0.c_1 main_call0.v5 (broadcastInDim S1024x1023 ![] bcast_S_S1024x1023),
    TRef.binary main_call0.v4 main_call0.v5 main_call0.v6 (cmpi .ne),
    TRef.nullary main_call0.c_2 (constantI S_ 32 0#32),
    TRef.unary main_call0.c_2 main_call0.v7 (broadcastInDim S1024x1023 ![] bcast_S_S1024x1023),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S1024x1023 ![] bcast_S_S1024x1023),
    TRef.binary main_call0.v8 main_call0.v10 main_call0.v11 (cmpi .ne),
    TRef.binary main_call0.v11 main_call0.v6 main_call0.v12 andi,
    TRef.unary main_call0.call0.v0 main_call0.v13 (broadcastInDim S1024x1023 ![] bcast_S_S1024x1023),
    TRef.binary main_call0.v4 main_call0.v13 main_call0.v14 addi,
    TRef.ternary main_call0.v12 main_call0.v14 main_call0.v4 main_call0.v15 select,
    unary main_arg0 main_v10 (broadcastInDim S1024x1x64 ![0, 2] bcast_S1024x64_S1024x1x64_0_2 : (⟨S1024x64, .f32⟩ : BufTy).Contents (Elt F) → (⟨S1024x1x64, .f32⟩ : BufTy).Contents (Elt F)),
    unary main_v10 main_v11 (broadcastInDim S1024x1023x64 ![0, 1, 2] bcast_S1024x1x64_S1024x1023x64_0_1_2 : (⟨S1024x1x64, .f32⟩ : BufTy).Contents (Elt F) → (⟨S1024x1023x64, .f32⟩ : BufTy).Contents (Elt F)),
    nullary main_c_1 (constantI S_ 32 0#32),
    unary main_c_1 main_v12 (broadcastInDim S1024x1023 ![] bcast_S_S1024x1023 : (⟨S_, .i32⟩ : BufTy).Contents (Elt F) → (⟨S1024x1023, .i32⟩ : BufTy).Contents (Elt F)),
    binary main_v9 main_v12 main_v13 (cmpi .slt : (⟨S1024x1023, .i32⟩ : BufTy).Contents (Elt F) → (⟨S1024x1023, .i32⟩ : BufTy).Contents (Elt F) → (⟨S1024x1023, .i1⟩ : BufTy).Contents (Elt F)),
    nullary main_c_2 (constantI S_ 32 1024#32),
    unary main_c_2 main_v14 (broadcastInDim S1024x1023 ![] bcast_S_S1024x1023 : (⟨S_, .i32⟩ : BufTy).Contents (Elt F) → (⟨S1024x1023, .i32⟩ : BufTy).Contents (Elt F)),
    binary main_v9 main_v14 main_v15 (addi : (⟨S1024x1023, .i32⟩ : BufTy).Contents (Elt F) → (⟨S1024x1023, .i32⟩ : BufTy).Contents (Elt F) → (⟨S1024x1023, .i32⟩ : BufTy).Contents (Elt F)),
    ternary main_v13 main_v15 main_v9 main_v16 (select : (⟨S1024x1023, .i1⟩ : BufTy).Contents (Elt F) → (⟨S1024x1023, .i32⟩ : BufTy).Contents (Elt F) → (⟨S1024x1023, .i32⟩ : BufTy).Contents (Elt F) → (⟨S1024x1023, .i32⟩ : BufTy).Contents (Elt F)),
    unary main_v16 main_v17 (broadcastInDim S1024x1023x1 ![0, 1] bcast_S1024x1023_S1024x1023x1_0_1 : (⟨S1024x1023, .i32⟩ : BufTy).Contents (Elt F) → (⟨S1024x1023x1, .i32⟩ : BufTy).Contents (Elt F)),
    binary main_arg0 main_v17 main_v18 ((fun x i => Host.gather gather_S1024x64_S1024x1023x1_S1024x1023x64_2_0_n_n_0_2_164 x i) : (⟨S1024x64, .f32⟩ : BufTy).Contents (Elt F) → (⟨S1024x1023x1, .i32⟩ : BufTy).Contents (Elt F) → (⟨S1024x1023x64, .f32⟩ : BufTy).Contents (Elt F)),
    binary main_v11 main_v18 main_v19 ((fun a b => concatenate S1024x1023x128 2 [⟨S1024x1023x64, a⟩, ⟨S1024x1023x64, b⟩] concatenates_S1024x1023x64_S1024x1023x64_S1024x1023x128_d2) : (⟨S1024x1023x64, .f32⟩ : BufTy).Contents (Elt F) → (⟨S1024x1023x64, .f32⟩ : BufTy).Contents (Elt F) → (⟨S1024x1023x128, .f32⟩ : BufTy).Contents (Elt F)),
    binary main_v19 main_arg1 main_v20 ((fun l r => Host.dotGeneral dot_S1024x1023x128_S128x128_S1024x1023x128_2_0_01_1_n_n none l r) : (⟨S1024x1023x128, .f32⟩ : BufTy).Contents (Elt F) → (⟨S128x128, .f32⟩ : BufTy).Contents (Elt F) → (⟨S1024x1023x128, .f32⟩ : BufTy).Contents (Elt F)),
    unary main_arg2 main_v21 (broadcastInDim S1x1x128 ![2] bcast_S128_S1x1x128_2 : (⟨S128, .f32⟩ : BufTy).Contents (Elt F) → (⟨S1x1x128, .f32⟩ : BufTy).Contents (Elt F)),
    unary main_v21 main_v22 (broadcastInDim S1024x1023x128 ![0, 1, 2] bcast_S1x1x128_S1024x1023x128_0_1_2 : (⟨S1x1x128, .f32⟩ : BufTy).Contents (Elt F) → (⟨S1024x1023x128, .f32⟩ : BufTy).Contents (Elt F)),
    binary main_v20 main_v22 main_v23 (addf : (⟨S1024x1023x128, .f32⟩ : BufTy).Contents (Elt F) → (⟨S1024x1023x128, .f32⟩ : BufTy).Contents (Elt F) → (⟨S1024x1023x128, .f32⟩ : BufTy).Contents (Elt F)),
    unary main_v23 main_v24 (Host.tanh : (⟨S1024x1023x128, .f32⟩ : BufTy).Contents (Elt F) → (⟨S1024x1023x128, .f32⟩ : BufTy).Contents (Elt F)),
    binary main_v24 main_arg3 main_v25 ((fun l r => Host.dotGeneral dot_S1024x1023x128_S128x64_S1024x1023x64_2_0_01_1_n_n none l r) : (⟨S1024x1023x128, .f32⟩ : BufTy).Contents (Elt F) → (⟨S128x64, .f32⟩ : BufTy).Contents (Elt F) → (⟨S1024x1023x64, .f32⟩ : BufTy).Contents (Elt F)),
    unary main_arg4 main_v26 (broadcastInDim S1x1x64 ![2] bcast_S64_S1x1x64_2 : (⟨S64, .f32⟩ : BufTy).Contents (Elt F) → (⟨S1x1x64, .f32⟩ : BufTy).Contents (Elt F)),
    unary main_v26 main_v27 (broadcastInDim S1024x1023x64 ![0, 1, 2] bcast_S1x1x64_S1024x1023x64_0_1_2 : (⟨S1x1x64, .f32⟩ : BufTy).Contents (Elt F) → (⟨S1024x1023x64, .f32⟩ : BufTy).Contents (Elt F)),
    binary main_v25 main_v27 main_v28 (addf : (⟨S1024x1023x64, .f32⟩ : BufTy).Contents (Elt F) → (⟨S1024x1023x64, .f32⟩ : BufTy).Contents (Elt F) → (⟨S1024x1023x64, .f32⟩ : BufTy).Contents (Elt F)),
    nullary main_cst (constant S_ .f32 0x00000000#32),
    binary main_v28 main_cst main_v29 ((fun x v => Host.reduceAdd x v reducesTo_S1024x1023x64_S1024x64_d1 h_S_) : (⟨S1024x1023x64, .f32⟩ : BufTy).Contents (Elt F) → (⟨S_, .f32⟩ : BufTy).Contents (Elt F) → (⟨S1024x64, .f32⟩ : BufTy).Contents (Elt F)),
    nullary main_cst_3 (constant S_ .f32 0x447FC000#32),
    unary main_cst_3 main_v30 (broadcastInDim S1024x64 ![] bcast_S_S1024x64 : (⟨S_, .f32⟩ : BufTy).Contents (Elt F) → (⟨S1024x64, .f32⟩ : BufTy).Contents (Elt F)),
    binary main_v29 main_v30 main_v31 (Host.divf : (⟨S1024x64, .f32⟩ : BufTy).Contents (Elt F) → (⟨S1024x64, .f32⟩ : BufTy).Contents (Elt F) → (⟨S1024x64, .f32⟩ : BufTy).Contents (Elt F)) ]

-- fifty-eight binds are re-associated, one level of recursion per statement
set_option maxRecDepth 1024 in
/-- @main is that line: with the two bodies unfolded at their calls, both sides are the same chain of steps once the
    sequencing is re-associated. -/
theorem main_eq (c : Dev nD) : main (F := F) c = seq ops := by
  simp only [main, fn_remainder.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation reads and writes TensorCore buffers only. -/
theorem ops_sub : (ops : List (HloOp τ sig (Elt F))).Forall fun op => op.bufs ⊆ tcRefs τ sig :=
  ⟨nullary_bufs_sub .., unary_bufs_sub .., nullary_bufs_sub .., nullary_bufs_sub .., unary_bufs_sub .., binary_bufs_sub ..,
    unary_bufs_sub .., unary_bufs_sub .., unary_bufs_sub .., binary_bufs_sub .., nullary_bufs_sub .., unary_bufs_sub ..,
    nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub ..,
    nullary_bufs_sub .., binary_bufs_sub .., unary_bufs_sub .., binary_bufs_sub .., binary_bufs_sub .., unary_bufs_sub ..,
    binary_bufs_sub .., ternary_bufs_sub .., unary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., binary_bufs_sub .., unary_bufs_sub .., unary_bufs_sub .., binary_bufs_sub ..,
    unary_bufs_sub .., binary_bufs_sub .., unary_bufs_sub .., unary_bufs_sub .., binary_bufs_sub .., nullary_bufs_sub ..,
    binary_bufs_sub .., nullary_bufs_sub .., unary_bufs_sub .., binary_bufs_sub ..⟩

/-- At the compiled mesh, for any float values, from any memory whose counters are zero: every weakly fair execution
    of @main terminates, and in every final state each TensorCore buffer holds the fold of the operations over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefStages.lean ====
/-
  The reference's result as ONE term of its five arguments, built stage by stage.

  The stages, in program order:
  * `sums`   — the table whose entry (i, j) is the 32-bit word of `i + (1 + j)`: two iotas, the constant 1, broadcasts;
  * `dvs`    — the divisor the remainder function really uses: 1 if its operand 1024 were 0, else the operand;
  * `rem4`   — the host's signed remainder of the table by the broadcast divisor;
  * `rem15`  — the remainder function's sign fix: where the remainder is non-zero and its sign differs from the divisor's,
               the remainder plus the divisor, else the remainder;
  * `idx16`  — the caller's fix for a negative index: where `rem15 < 0`, `rem15 + 1024`, else `rem15`;
  * `idx17`  — the same table with a trailing unit axis, as the gather takes its start indices;
  * `gath`   — the partner rows: the gather of `x` along axis 0 at those start indices;
  * `pairs`  — a row's own features (two broadcasts of `x`) and the partner's side by side along the last axis;
  * `hid`    — tanh of the first dense layer: the contraction of `pairs` with `W1`, plus the broadcast bias `b1`;
  * `upd`    — the second dense layer: the contraction of `hid` with `W2`, plus the broadcast bias `b2`;
  * `outT`   — the sum of `upd` over the partner axis from the constant 0, divided by the broadcast constant 1023.
  The integer stages do not depend on the arguments.
-/
import proofs.«126472_j77927886618998_1_alg».proof.Proof.Gen.ReferenceIdeal

noncomputable section

namespace Cert.ReferenceIdeal.RefValue

open Cert.ReferenceIdeal Cert.ReferenceIdeal.Gen Idealize.ShloMosaic

variable {F : FTy → Type} [FloatOps F]

/-! ## The integer stages -/

/-- Entry (i, j) is the word of `i + (1 + j)`. -/
def sums : IVec S1024x1023 32 :=
  addi
    (broadcastInDim S1024x1023 ![0, 1] bcast_S1024x1_S1024x1023_0_1
      (broadcastInDim S1024x1 ![0] bcast_S1024_S1024x1_0 (iotaInDim S1024 32 0)))
    (broadcastInDim S1024x1023 ![0, 1] bcast_S1x1023_S1024x1023_0_1
      (broadcastInDim S1x1023 ![1] bcast_S1023_S1x1023_1
        (addi (broadcastInDim S1023 ![] bcast_S_S1023 (constantI S_ 32 1#32)) (iotaInDim S1023 32 0))))

/-- The remainder function's divisor: 1 where its operand (here the constant 1024) is 0, else the operand. -/
def dvs : IVec S_ 32 :=
  select (cmpi .eq (constantI S_ 32 1024#32) (constantI S_ 32 0#32)) (constantI S_ 32 1#32) (constantI S_ 32 1024#32)

/-- A rank-zero integer broadcast over the table's shape. -/
abbrev splat {w : Nat} (v : IVec S_ w) : IVec S1024x1023 w := broadcastInDim S1024x1023 ![] bcast_S_S1024x1023 v

/-- The host's signed remainder of the table by the divisor. -/
def rem4 : IVec S1024x1023 32 := Host.remsi sums (splat dvs)

/-- The remainder function's result: the remainder moved by the divisor where it is non-zero and of the other sign. -/
def rem15 : IVec S1024x1023 32 :=
  select
    (andi (cmpi .ne (cmpi .slt rem4 (splat (constantI S_ 32 0#32))) (splat (cmpi .slt dvs (constantI S_ 32 0#32))))
      (cmpi .ne rem4 (splat (constantI S_ 32 0#32))))
    (addi rem4 (splat dvs)) rem4

/-- The caller's wrap of a negative index. -/
def idx16 : IVec S1024x1023 32 :=
  select (cmpi .slt rem15 (splat (constantI S_ 32 0#32))) (addi rem15 (splat (constantI S_ 32 1024#32))) rem15

/-- The start indices as the gather takes them: a trailing unit axis added. -/
def idx17 : IVec S1024x1023x1 32 := broadcastInDim S1024x1023x1 ![0, 1] bcast_S1024x1023_S1024x1023x1_0_1 idx16

/-! ## The float stages -/

/-- The partner rows. -/
def gath (x : FVec F S1024x64 .f32) : FVec F S1024x1023x64 .f32 :=
  Host.gather gather_S1024x64_S1024x1023x1_S1024x1023x64_2_0_n_n_0_2_164 x idx17

/-- Own features and partner's features side by side. -/
def pairs (x : FVec F S1024x64 .f32) : FVec F S1024x1023x128 .f32 :=
  concatenate S1024x1023x128 2
    [⟨S1024x1023x64, broadcastInDim S1024x1023x64 ![0, 1, 2] bcast_S1024x1x64_S1024x1023x64_0_1_2
        (broadcastInDim S1024x1x64 ![0, 2] bcast_S1024x64_S1024x1x64_0_2 x)⟩,
      ⟨S1024x1023x64, gath x⟩]
    concatenates_S1024x1023x64_S1024x1023x64_S1024x1023x128_d2

/-- The hidden layer. -/
def hid (x : FVec F S1024x64 .f32) (W1 : FVec F S128x128 .f32) (b1 : FVec F S128 .f32) : FVec F S1024x1023x128 .f32 :=
  Host.tanh
    (addf (Host.dotGeneral dot_S1024x1023x128_S128x128_S1024x1023x128_2_0_01_1_n_n none (pairs x) W1)
      (broadcastInDim S1024x1023x128 ![0, 1, 2] bcast_S1x1x128_S1024x1023x128_0_1_2
        (broadcastInDim S1x1x128 ![2] bcast_S128_S1x1x128_2 b1)))

/-- The per-pair update. -/
def upd (x : FVec F S1024x64 .f32) (W1 : FVec F S128x128 .f32) (b1 : FVec F S128 .f32) (W2 : FVec F S128x64 .f32)
    (b2 : FVec F S64 .f32) : FVec F S1024x1023x64 .f32 :=
  addf (Host.dotGeneral dot_S1024x1023x128_S128x64_S1024x1023x64_2_0_01_1_n_n none (hid x W1 b1) W2)
    (broadcastInDim S1024x1023x64 ![0, 1, 2] bcast_S1x1x64_S1024x1023x64_0_1_2
      (broadcastInDim S1x1x64 ![2] bcast_S64_S1x1x64_2 b2))

/-- The result: the sum over the partner axis, divided by 1023. -/
def outT (x : FVec F S1024x64 .f32) (W1 : FVec F S128x128 .f32) (b1 : FVec F S128 .f32) (W2 : FVec F S128x64 .f32)
    (b2 : FVec F S64 .f32) : FVec F S1024x64 .f32 :=
  Host.divf
    (Host.reduceAdd (upd x W1 b1 W2 b2) (constant (F := F) S_ .f32 0x00000000#32) reducesTo_S1024x1023x64_S1024x64_d1 h_S_)
    (broadcastInDim S1024x64 ![] bcast_S_S1024x64 (constant (F := F) S_ .f32 0x447FC000#32))

end Cert.ReferenceIdeal.RefValue

end
-- ==== Proof.RefTerm.lean ====
/-
  The fold of the reference's fifty-eight operations read back: at the result buffer it is the staged term `outT` of the
  contents of the five argument buffers, and at each argument buffer it is what was there.

  Nothing here looks inside a stage: the fold's value is `outT` of the launch contents because the two are the same
  composition of the same functions.
-/
import proofs.«126472_j77927886618998_1_alg».proof.Proof.RefRun
import proofs.«126472_j77927886618998_1_alg».proof.Proof.RefStages

noncomputable section

namespace Cert.ReferenceIdeal.RefValue

open Cert.ReferenceIdeal Cert.ReferenceIdeal.Gen Idealize.ShloMosaic Idealize.ShloMosaic.TcCoe Idealize.SL.Sem
  Idealize.ShloMosaic.StableHlo

variable {F : FTy → Type} [FloatOps F]

/-! ## The fold read back

The fold is read in two parts. The first forty-three operations end with the gather; what they leave at the two buffers the
concatenation reads, and at the argument buffers, is computed operation by operation. The last fifteen are computed
the same way over an arbitrary valuation `W`, with the concatenation's two operands as they stand in `W`: the
concatenation's shape fact is stated of its list of operands, so nothing is rewritten underneath it. -/

/-- The operations up to and including the gather. -/
abbrev opsA : List (HloOp τ sig (Elt F)) :=
  [ nullary main_v0 (iotaInDim S1024 32 0),
    unary main_v0 main_v1 (broadcastInDim S1024x1 ![0] bcast_S1024_S1024x1_0 : (⟨S1024, .i32⟩ : BufTy).Contents (Elt F) → (⟨S1024x1, .i32⟩ : BufTy).Contents (Elt F)),
    nullary main_v2 (iotaInDim S1023 32 0),
    nullary main_c (constantI S_ 32 1#32),
    unary main_c main_v3 (broadcastInDim S1023 ![] bcast_S_S1023 : (⟨S_, .i32⟩ : BufTy).Contents (Elt F) → (⟨S1023, .i32⟩ : BufTy).Contents (Elt F)),
    binary main_v3 main_v2 main_v4 (addi : (⟨S1023, .i32⟩ : BufTy).Contents (Elt F) → (⟨S1023, .i32⟩ : BufTy).Contents (Elt F) → (⟨S1023, .i32⟩ : BufTy).Contents (Elt F)),
    unary main_v4 main_v5 (broadcastInDim S1x1023 ![1] bcast_S1023_S1x1023_1 : (⟨S1023, .i32⟩ : BufTy).Contents (Elt F) → (⟨S1x1023, .i32⟩ : BufTy).Contents (Elt F)),
    unary main_v1 main_v6 (broadcastInDim S1024x1023 ![0, 1] bcast_S1024x1_S1024x1023_0_1 : (⟨S1024x1, .i32⟩ : BufTy).Contents (Elt F) → (⟨S1024x1023, .i32⟩ : BufTy).Contents (Elt F)),
    unary main_v5 main_v7 (broadcastInDim S1024x1023 ![0, 1] bcast_S1x1023_S1024x1023_0_1 : (⟨S1x1023, .i32⟩ : BufTy).Contents (Elt F) → (⟨S1024x1023, .i32⟩ : BufTy).Contents (Elt F)),
    binary main_v6 main_v7 main_v8 (addi : (⟨S1024x1023, .i32⟩ : BufTy).Contents (Elt F) → (⟨S1024x1023, .i32⟩ : BufTy).Contents (Elt F) → (⟨S1024x1023, .i32⟩ : BufTy).Contents (Elt F)),
    nullary main_c_0 (constantI S_ 32 1024#32),
    TRef.unary (.of main_c_0) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S1024x1023 ![] bcast_S_S1024x1023),
    TRef.binary (.of main_v8) main_call0.v3 main_call0.v4 Host.remsi,
    TRef.nullary main_call0.c_1 (constantI S_ 32 0#32),
    TRef.unary main_call0.c_1 main_call0.v5 (broadcastInDim S1024x1023 ![] bcast_S_S1024x1023),
    TRef.binary main_call0.v4 main_call0.v5 main_call0.v6 (cmpi .ne),
    TRef.nullary main_call0.c_2 (constantI S_ 32 0#32),
    TRef.unary main_call0.c_2 main_call0.v7 (broadcastInDim S1024x1023 ![] bcast_S_S1024x1023),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S1024x1023 ![] bcast_S_S1024x1023),
    TRef.binary main_call0.v8 main_call0.v10 main_call0.v11 (cmpi .ne),
    TRef.binary main_call0.v11 main_call0.v6 main_call0.v12 andi,
    TRef.unary main_call0.call0.v0 main_call0.v13 (broadcastInDim S1024x1023 ![] bcast_S_S1024x1023),
    TRef.binary main_call0.v4 main_call0.v13 main_call0.v14 addi,
    TRef.ternary main_call0.v12 main_call0.v14 main_call0.v4 main_call0.v15 select,
    unary main_arg0 main_v10 (broadcastInDim S1024x1x64 ![0, 2] bcast_S1024x64_S1024x1x64_0_2 : (⟨S1024x64, .f32⟩ : BufTy).Contents (Elt F) → (⟨S1024x1x64, .f32⟩ : BufTy).Contents (Elt F)),
    unary main_v10 main_v11 (broadcastInDim S1024x1023x64 ![0, 1, 2] bcast_S1024x1x64_S1024x1023x64_0_1_2 : (⟨S1024x1x64, .f32⟩ : BufTy).Contents (Elt F) → (⟨S1024x1023x64, .f32⟩ : BufTy).Contents (Elt F)),
    nullary main_c_1 (constantI S_ 32 0#32),
    unary main_c_1 main_v12 (broadcastInDim S1024x1023 ![] bcast_S_S1024x1023 : (⟨S_, .i32⟩ : BufTy).Contents (Elt F) → (⟨S1024x1023, .i32⟩ : BufTy).Contents (Elt F)),
    binary main_v9 main_v12 main_v13 (cmpi .slt : (⟨S1024x1023, .i32⟩ : BufTy).Contents (Elt F) → (⟨S1024x1023, .i32⟩ : BufTy).Contents (Elt F) → (⟨S1024x1023, .i1⟩ : BufTy).Contents (Elt F)),
    nullary main_c_2 (constantI S_ 32 1024#32),
    unary main_c_2 main_v14 (broadcastInDim S1024x1023 ![] bcast_S_S1024x1023 : (⟨S_, .i32⟩ : BufTy).Contents (Elt F) → (⟨S1024x1023, .i32⟩ : BufTy).Contents (Elt F)),
    binary main_v9 main_v14 main_v15 (addi : (⟨S1024x1023, .i32⟩ : BufTy).Contents (Elt F) → (⟨S1024x1023, .i32⟩ : BufTy).Contents (Elt F) → (⟨S1024x1023, .i32⟩ : BufTy).Contents (Elt F)),
    ternary main_v13 main_v15 main_v9 main_v16 (select : (⟨S1024x1023, .i1⟩ : BufTy).Contents (Elt F) → (⟨S1024x1023, .i32⟩ : BufTy).Contents (Elt F) → (⟨S1024x1023, .i32⟩ : BufTy).Contents (Elt F) → (⟨S1024x1023, .i32⟩ : BufTy).Contents (Elt F)),
    unary main_v16 main_v17 (broadcastInDim S1024x1023x1 ![0, 1] bcast_S1024x1023_S1024x1023x1_0_1 : (⟨S1024x1023, .i32⟩ : BufTy).Contents (Elt F) → (⟨S1024x1023x1, .i32⟩ : BufTy).Contents (Elt F)),
    binary main_arg0 main_v17 main_v18 ((fun x i => Host.gather gather_S1024x64_S1024x1023x1_S1024x1023x64_2_0_n_n_0_2_164 x i) : (⟨S1024x64, .f32⟩ : BufTy).Contents (Elt F) → (⟨S1024x1023x1, .i32⟩ : BufTy).Contents (Elt F) → (⟨S1024x1023x64, .f32⟩ : BufTy).Contents (Elt F)) ]

/-- The operations from the concatenation on. -/
abbrev opsB : List (HloOp τ sig (Elt F)) :=
  [ binary main_v11 main_v18 main_v19 ((fun a b => concatenate S1024x1023x128 2 [⟨S1024x1023x64, a⟩, ⟨S1024x1023x64, b⟩] concatenates_S1024x1023x64_S1024x1023x64_S1024x1023x128_d2) : (⟨S1024x1023x64, .f32⟩ : BufTy).Contents (Elt F) → (⟨S1024x1023x64, .f32⟩ : BufTy).Contents (Elt F) → (⟨S1024x1023x128, .f32⟩ : BufTy).Contents (Elt F)),
    binary main_v19 main_arg1 main_v20 ((fun l r => Host.dotGeneral dot_S1024x1023x128_S128x128_S1024x1023x128_2_0_01_1_n_n none l r) : (⟨S1024x1023x128, .f32⟩ : BufTy).Contents (Elt F) → (⟨S128x128, .f32⟩ : BufTy).Contents (Elt F) → (⟨S1024x1023x128, .f32⟩ : BufTy).Contents (Elt F)),
    unary main_arg2 main_v21 (broadcastInDim S1x1x128 ![2] bcast_S128_S1x1x128_2 : (⟨S128, .f32⟩ : BufTy).Contents (Elt F) → (⟨S1x1x128, .f32⟩ : BufTy).Contents (Elt F)),
    unary main_v21 main_v22 (broadcastInDim S1024x1023x128 ![0, 1, 2] bcast_S1x1x128_S1024x1023x128_0_1_2 : (⟨S1x1x128, .f32⟩ : BufTy).Contents (Elt F) → (⟨S1024x1023x128, .f32⟩ : BufTy).Contents (Elt F)),
    binary main_v20 main_v22 main_v23 (addf : (⟨S1024x1023x128, .f32⟩ : BufTy).Contents (Elt F) → (⟨S1024x1023x128, .f32⟩ : BufTy).Contents (Elt F) → (⟨S1024x1023x128, .f32⟩ : BufTy).Contents (Elt F)),
    unary main_v23 main_v24 (Host.tanh : (⟨S1024x1023x128, .f32⟩ : BufTy).Contents (Elt F) → (⟨S1024x1023x128, .f32⟩ : BufTy).Contents (Elt F)),
    binary main_v24 main_arg3 main_v25 ((fun l r => Host.dotGeneral dot_S1024x1023x128_S128x64_S1024x1023x64_2_0_01_1_n_n none l r) : (⟨S1024x1023x128, .f32⟩ : BufTy).Contents (Elt F) → (⟨S128x64, .f32⟩ : BufTy).Contents (Elt F) → (⟨S1024x1023x64, .f32⟩ : BufTy).Contents (Elt F)),
    unary main_arg4 main_v26 (broadcastInDim S1x1x64 ![2] bcast_S64_S1x1x64_2 : (⟨S64, .f32⟩ : BufTy).Contents (Elt F) → (⟨S1x1x64, .f32⟩ : BufTy).Contents (Elt F)),
    unary main_v26 main_v27 (broadcastInDim S1024x1023x64 ![0, 1, 2] bcast_S1x1x64_S1024x1023x64_0_1_2 : (⟨S1x1x64, .f32⟩ : BufTy).Contents (Elt F) → (⟨S1024x1023x64, .f32⟩ : BufTy).Contents (Elt F)),
    binary main_v25 main_v27 main_v28 (addf : (⟨S1024x1023x64, .f32⟩ : BufTy).Contents (Elt F) → (⟨S1024x1023x64, .f32⟩ : BufTy).Contents (Elt F) → (⟨S1024x1023x64, .f32⟩ : BufTy).Contents (Elt F)),
    nullary main_cst (constant S_ .f32 0x00000000#32),
    binary main_v28 main_cst main_v29 ((fun x v => Host.reduceAdd x v reducesTo_S1024x1023x64_S1024x64_d1 h_S_) : (⟨S1024x1023x64, .f32⟩ : BufTy).Contents (Elt F) → (⟨S_, .f32⟩ : BufTy).Contents (Elt F) → (⟨S1024x64, .f32⟩ : BufTy).Contents (Elt F)),
    nullary main_cst_3 (constant S_ .f32 0x447FC000#32),
    unary main_cst_3 main_v30 (broadcastInDim S1024x64 ![] bcast_S_S1024x64 : (⟨S_, .f32⟩ : BufTy).Contents (Elt F) → (⟨S1024x64, .f32⟩ : BufTy).Contents (Elt F)),
    binary main_v29 main_v30 main_v31 (Host.divf : (⟨S1024x64, .f32⟩ : BufTy).Contents (Elt F) → (⟨S1024x64, .f32⟩ : BufTy).Contents (Elt F) → (⟨S1024x64, .f32⟩ : BufTy).Contents (Elt F)) ]

theorem ops_split : RefRun.ops (F := F) = opsA ++ opsB := rfl

/-- The fold over a concatenation is the fold over the second part from the fold over the first. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- The last fifteen operations as a function of the concatenation's two operands and the four parameter arrays. -/
def tailT (p q : FVec F S1024x1023x64 .f32) (W1 : FVec F S128x128 .f32) (b1 : FVec F S128 .f32) (W2 : FVec F S128x64 .f32)
    (b2 : FVec F S64 .f32) : FVec F S1024x64 .f32 :=
  Host.divf
    (Host.reduceAdd
      (addf
        (Host.dotGeneral dot_S1024x1023x128_S128x64_S1024x1023x64_2_0_01_1_n_n none
          (Host.tanh
            (addf
              (Host.dotGeneral dot_S1024x1023x128_S128x128_S1024x1023x128_2_0_01_1_n_n none
                (concatenate S1024x1023x128 2 [⟨S1024x1023x64, p⟩, ⟨S1024x1023x64, q⟩]
                  concatenates_S1024x1023x64_S1024x1023x64_S1024x1023x128_d2) W1)
              (broadcastInDim S1024x1023x128 ![0, 1, 2] bcast_S1x1x128_S1024x1023x128_0_1_2
                (broadcastInDim S1x1x128 ![2] bcast_S128_S1x1x128_2 b1)))) W2)
        (broadcastInDim S1024x1023x64 ![0, 1, 2] bcast_S1x1x64_S1024x1023x64_0_1_2
          (broadcastInDim S1x1x64 ![2] bcast_S64_S1x1x64_2 b2)))
      (constant (F := F) S_ .f32 0x00000000#32) reducesTo_S1024x1023x64_S1024x64_d1 h_S_)
    (broadcastInDim S1024x64 ![] bcast_S_S1024x64 (constant (F := F) S_ .f32 0x447FC000#32))

/-- `outT` is `tailT` at a row's own features broadcast and the gathered partner rows. -/
theorem outT_eq_tailT (x : FVec F S1024x64 .f32) (W1 : FVec F S128x128 .f32) (b1 : FVec F S128 .f32)
    (W2 : FVec F S128x64 .f32) (b2 : FVec F S64 .f32) :
    outT x W1 b1 W2 b2
      = tailT (broadcastInDim S1024x1023x64 ![0, 1, 2] bcast_S1024x1x64_S1024x1023x64_0_1_2
            (broadcastInDim S1024x1x64 ![0, 2] bcast_S1024x64_S1024x1x64_0_2 x)) (gath x) W1 b1 W2 b2 := rfl

/-- The last fifteen operations over any valuation. -/
theorem tail_eq (W : Valuation τ sig (Elt F)) :
    after (opsB (F := F)) W (main_v31 : DevRef τ sig)
      = tailT (W (main_v11 : DevRef τ sig)) (W (main_v18 : DevRef τ sig)) (W (main_arg1 : DevRef τ sig))
          (W (main_arg2 : DevRef τ sig)) (W (main_arg3 : DevRef τ sig)) (W (main_arg4 : DevRef τ sig)) := by
  unfold opsB
  after_results_simp
  rfl

/-- What the first forty-three operations leave at the broadcast of a row's own features … -/
theorem headA_v11 (V : Valuation τ sig (Elt F)) :
    after (opsA (F := F)) V (main_v11 : DevRef τ sig)
      = broadcastInDim S1024x1023x64 ![0, 1, 2] bcast_S1024x1x64_S1024x1023x64_0_1_2
          (broadcastInDim S1024x1x64 ![0, 2] bcast_S1024x64_S1024x1x64_0_2 (V (main_arg0 : DevRef τ sig))) := by
  unfold opsA
  after_results_simp

/-- … at the gathered partner rows: the gather of the first argument at the integer stages' start indices (the typed
    references' transports are the identity at these literal references, so the two sides are one composition) … -/
theorem headA_v18 (V : Valuation τ sig (Elt F)) :
    after (opsA (F := F)) V (main_v18 : DevRef τ sig) = gath (V (main_arg0 : DevRef τ sig)) := by
  unfold opsA
  after_results_simp
  rfl

/-- … and at the four parameter arrays: what was there. -/
theorem headA_arg1 (V : Valuation τ sig (Elt F)) :
    after (opsA (F := F)) V (main_arg1 : DevRef τ sig) = V (main_arg1 : DevRef τ sig) := by
  unfold opsA
  after_results_simp
theorem headA_arg2 (V : Valuation τ sig (Elt F)) :
    after (opsA (F := F)) V (main_arg2 : DevRef τ sig) = V (main_arg2 : DevRef τ sig) := by
  unfold opsA
  after_results_simp
theorem headA_arg3 (V : Valuation τ sig (Elt F)) :
    after (opsA (F := F)) V (main_arg3 : DevRef τ sig) = V (main_arg3 : DevRef τ sig) := by
  unfold opsA
  after_results_simp
theorem headA_arg4 (V : Valuation τ sig (Elt F)) :
    after (opsA (F := F)) V (main_arg4 : DevRef τ sig) = V (main_arg4 : DevRef τ sig) := by
  unfold opsA
  after_results_simp

/-- The fold of all fifty-eight operations at the result buffer is `outT` of the argument buffers' contents. -/
theorem outT_eq (V : Valuation τ sig (Elt F)) :
    after (RefRun.ops (F := F)) V (main_v31 : DevRef τ sig)
      = outT (V (main_arg0 : DevRef τ sig)) (V (main_arg1 : DevRef τ sig)) (V (main_arg2 : DevRef τ sig))
          (V (main_arg3 : DevRef τ sig)) (V (main_arg4 : DevRef τ sig)) := by
  rw [ops_split, after_app, tail_eq, headA_v11, headA_v18, headA_arg1, headA_arg2, headA_arg3, headA_arg4, outT_eq_tailT]

/-! ## The argument buffers: no operation writes them -/

theorem arg0_eq (V : Valuation τ sig (Elt F)) :
    after (RefRun.ops (F := F)) V (main_arg0 : DevRef τ sig) = V (main_arg0 : DevRef τ sig) := by
  unfold RefRun.ops
  after_results_simp
theorem arg1_eq (V : Valuation τ sig (Elt F)) :
    after (RefRun.ops (F := F)) V (main_arg1 : DevRef τ sig) = V (main_arg1 : DevRef τ sig) := by
  unfold RefRun.ops
  after_results_simp
theorem arg2_eq (V : Valuation τ sig (Elt F)) :
    after (RefRun.ops (F := F)) V (main_arg2 : DevRef τ sig) = V (main_arg2 : DevRef τ sig) := by
  unfold RefRun.ops
  after_results_simp
theorem arg3_eq (V : Valuation τ sig (Elt F)) :
    after (RefRun.ops (F := F)) V (main_arg3 : DevRef τ sig) = V (main_arg3 : DevRef τ sig) := by
  unfold RefRun.ops
  after_results_simp
theorem arg4_eq (V : Valuation τ sig (Elt F)) :
    after (RefRun.ops (F := F)) V (main_arg4 : DevRef τ sig) = V (main_arg4 : DevRef τ sig) := by
  unfold RefRun.ops
  after_results_simp

end Cert.ReferenceIdeal.RefValue

end
-- ==== Proof.RefIndex.lean ====
/-
  The integer stages read at an index: the start index the gather reads for row `i` and partner slot `j` is the row
  `i + (j + 1)` modulo 1024.

  The table's entry (i, j) is the 32-bit word of `i + (1 + j)`, below 2047, so nothing wraps. The remainder function
  divides by 1024 (its guard against a zero divisor does not fire), the host's signed remainder of a non-negative word
  by 1024 is the word of the natural-number remainder, and neither sign fix fires: the remainder is not negative, and
  neither is the divisor. Read as a signed integer the word is the remainder itself, already inside `[0, 1023]`, so the
  gather's clamp leaves it, and as an element of `Fin 1024` it is `i + (j + 1)`.
-/
import proofs.«126472_j77927886618998_1_alg».proof.Proof.RefStages
import proofs.«126472_j77927886618998_1_alg».proof.Proof.Spec
import Idealize.ShloMosaic.Lib.ValueIdx

noncomputable section

namespace Cert.ReferenceIdeal.RefValue

open Cert.ReferenceIdeal Cert.ReferenceIdeal.Gen Idealize.ShloMosaic Idealize.ShloMosaic.ValueIdx

/-! ## Words -/

/-- The sum of the words of `i`, 1 and `j` is the word of `i + (1 + j)`. -/
theorem ofNat_add3 (i j : Nat) :
    IntOp.addi (BitVec.ofNat 32 i) (IntOp.addi 1#32 (BitVec.ofNat 32 j)) = BitVec.ofNat 32 (i + (1 + j)) := by
  unfold IntOp.addi
  rw [show (1#32 : BitVec 32) = BitVec.ofNat 32 1 from rfl, ← BitVec.ofNat_add, ← BitVec.ofNat_add]

/-- The host's signed remainder by 1024 of the word of a small natural number: no corner (the divisor is neither 0
    nor −1), both signs non-negative, so it is the unsigned remainder, the word of `n % 1024`. -/
theorem remsi_small (n : Nat) (hn : n < 2048) :
    IntOp.remsi .host (BitVec.ofNat 32 n) 1024#32 = BitVec.ofNat 32 (n % 1024) := by
  have hc : ¬ IntOp.SDivCorner (BitVec.ofNat 32 n) 1024#32 := by
    rintro (h | ⟨_, h⟩) <;> exact absurd h (by decide)
  unfold IntOp.remsi
  rw [if_neg hc]
  have hx : (BitVec.ofNat 32 n).msb = false := by
    rw [BitVec.msb_eq_false_iff_two_mul_lt, BitVec.toNat_ofNat]; omega
  have hy : (1024#32 : BitVec 32).msb = false := by decide
  rw [BitVec.srem_eq, hx, hy]
  apply BitVec.eq_of_toNat_eq
  simp only [BitVec.toNat_umod, BitVec.toNat_ofNat]
  have h1 : n % 2 ^ 32 = n := Nat.mod_eq_of_lt (by omega)
  have h2 : n % 1024 % 2 ^ 32 = n % 1024 := Nat.mod_eq_of_lt (by omega)
  rw [h1, h2]

/-- The word of a natural number below 2³¹ is not negative. -/
theorem slt_zero_small (n : Nat) (hn : n < 2 ^ 31) : IntOp.cmpi .slt (BitVec.ofNat 32 n) 0#32 = 0#1 := by
  have hx : (BitVec.ofNat 32 n).msb = false := by
    rw [BitVec.msb_eq_false_iff_two_mul_lt, BitVec.toNat_ofNat]; omega
  unfold IntOp.cmpi
  simp only
  rw [BitVec.slt_zero_eq_msb, hx]
  rfl

/-! ## The stages at an index -/

/-- The table of sums: no wrap, the word of `i + (1 + j)`. -/
theorem sums_apply (i : Fin 1024) (j : Fin 1023) : sums (ix2 i j) = BitVec.ofNat 32 (i.val + (1 + j.val)) := by
  show IntOp.addi (BitVec.ofNat 32 i.val) (IntOp.addi 1#32 (BitVec.ofNat 32 j.val)) = _
  exact ofNat_add3 i.val j.val

/-- The divisor is 1024: the guard `1024 == 0` is false. -/
theorem dvs_apply (k : S_.Idx) : dvs k = 1024#32 := rfl

/-- The remainder: the word of `(i + (1 + j)) % 1024`. -/
theorem rem4_apply (i : Fin 1024) (j : Fin 1023) :
    rem4 (ix2 i j) = BitVec.ofNat 32 ((i.val + (1 + j.val)) % 1024) := by
  show IntOp.remsi .host (sums (ix2 i j)) (dvs _) = _
  rw [sums_apply, dvs_apply]
  exact remsi_small _ (by have := i.isLt; have := j.isLt; omega)

/-- The remainder function's sign fix does not fire: the remainder is not negative and neither is the divisor, so the
    two signs agree. -/
theorem rem15_apply (i : Fin 1024) (j : Fin 1023) : rem15 (ix2 i j) = rem4 (ix2 i j) := by
  show Scalar.select
      (IntOp.andi (IntOp.cmpi .ne (IntOp.cmpi .slt (rem4 (ix2 i j)) 0#32) (IntOp.cmpi .slt (dvs ix0) 0#32))
        (IntOp.cmpi .ne (rem4 (ix2 i j)) 0#32))
      (IntOp.addi (rem4 (ix2 i j)) (dvs ix0)) (rem4 (ix2 i j)) = _
  rw [rem4_apply, dvs_apply, slt_zero_small _ (by omega)]
  have h0 : IntOp.cmpi .ne (0#1) (IntOp.cmpi .slt 1024#32 0#32) = 0#1 := by decide
  have h1 : ∀ b : BitVec 1, IntOp.andi 0#1 b = 0#1 := by decide
  rw [h0, h1, select_zero]

/-- The caller's wrap of a negative index does not fire either. -/
theorem idx16_apply (i : Fin 1024) (j : Fin 1023) :
    idx16 (ix2 i j) = BitVec.ofNat 32 ((i.val + (1 + j.val)) % 1024) := by
  show Scalar.select (IntOp.cmpi .slt (rem15 (ix2 i j)) 0#32) (IntOp.addi (rem15 (ix2 i j)) 1024#32) (rem15 (ix2 i j)) = _
  rw [rem15_apply, rem4_apply, slt_zero_small _ (by omega), select_zero]

/-- The trailing unit axis reads the table at the same row and slot. -/
theorem idx17_apply (i : Fin 1024) (j : Fin 1023) : idx17 (ix3 i j (0 : Fin 1)) = idx16 (ix2 i j) := by
  unfold idx17 broadcastInDim
  refine congrArg idx16 (funext fun a => Fin.ext ?_)
  match a with
  | ⟨0, _⟩ => rfl
  | ⟨1, _⟩ => rfl

/-- The start index the gather reads at (i, j), read signed and clamped to the operand's 1024 rows, is the partner row
    `i + (j + 1)` of `Fin 1024`. -/
theorem start_eq_partner (i : Fin 1024) (j : Fin 1023)
    (h : min (idx17 (ix3 i j (0 : Fin 1))).toInt.toNat (1024 - 1) < 1024) :
    (⟨min (idx17 (ix3 i j (0 : Fin 1))).toInt.toNat (1024 - 1), h⟩ : Fin 1024) = Cert.Spec.partner i j := by
  apply Fin.ext
  show min (idx17 (ix3 i j (0 : Fin 1))).toInt.toNat (1024 - 1) = (i + j.succ).val
  rw [idx17_apply, idx16_apply, Fin.val_add, Fin.val_succ]
  have hm : (BitVec.ofNat 32 ((i.val + (1 + j.val)) % 1024)).msb = false := by
    rw [BitVec.msb_eq_false_iff_two_mul_lt, BitVec.toNat_ofNat]; omega
  rw [BitVec.toInt_eq_toNat_of_msb hm, Int.toNat_natCast, BitVec.toNat_ofNat]
  omega

end Cert.ReferenceIdeal.RefValue

end
-- ==== Proof.RefRead.lean ====
/-
  Three array operations read at one index, for any extents: what the reference's value is built from.

  * a contraction of a rank-3 array's last axis with a matrix's first axis: entry (i, j, h) is `∑ c, A (i, j, c) * B (c, h)`;
  * a gather of whole rows of a matrix at a table of start indices carrying a trailing unit axis: entry (r, c, f) is
    the operand's entry (start (r, c), f), the start read as a signed integer and clamped to the operand's rows;
  * a sum over the middle axis of a rank-3 array from an initial value: entry (i, o) is `init + ∑ j, x (i, j, o)`.
  Stated over extents that are variables and coordinates of literal `Fin` types, so they apply at any size without
  anything being evaluated.
-/
import Idealize.ShloMosaic.PureOps.Ideal.Laws
import Idealize.ShloMosaic.Lib.ValueIdx

noncomputable section

namespace Cert.ReferenceIdeal.RefRead

open Idealize.ShloMosaic Idealize.ShloMosaic.ValueIdx

/-! ## The contraction -/

/-- `dot_general` of `[a, b, k]` with `[k, n]`, contracting the last axis with the first, no batch axis, at the ideal
    values: entry (i, j, h) is the sum over the contracted coordinate of the products. `w` is the record's
    well-formedness, which a program states. -/
theorem dot32_apply {a b k n : Nat} {φ₁ φ₂ : FTy}
    (w : DotDims.WF ⟨3, ![a, b, k]⟩ ⟨2, ![k, n]⟩ ⟨3, ![a, b, n]⟩ [2] [0] [0, 1] [1] [] [])
    (prec : Option ContractPrecision) (A : FVec Ideal ⟨3, ![a, b, k]⟩ φ₁) (B : FVec Ideal ⟨2, ![k, n]⟩ φ₂)
    (i : Fin a) (j : Fin b) (h : Fin n) :
    Host.dotGeneral (⟨[2], [0], [0, 1], [1], [], [], w⟩ : DotDims _ _ _) prec A B (ix3 i j h)
      = ∑ c : Fin k, A (ix3 i j c) * B (ix2 c h) := by
  show FloatOps.dotGeneral _ prec _ A B (ix3 i j h) = _
  rw [Ideal.dotGeneral_apply,
    ← Equiv.sum_comp (contrEquiv1 (⟨[2], [0], [0, 1], [1], [], [], w⟩ : DotDims _ _ _) k rfl rfl).symm]
  refine Finset.sum_congr rfl fun c _ => ?_
  have c3 := contrEquiv1_symm_val
    (⟨[2], [0], [0, 1], [1], [], [], w⟩ : DotDims ⟨3, ![a, b, k]⟩ ⟨2, ![k, n]⟩ ⟨3, ![a, b, n]⟩) k rfl rfl c
  have l3 : (⟨[2], [0], [0, 1], [1], [], [], w⟩ : DotDims ⟨3, ![a, b, k]⟩ ⟨2, ![k, n]⟩ ⟨3, ![a, b, n]⟩).lhsIdx (ix3 i j h)
      ((contrEquiv1 _ k rfl rfl).symm c) = ix3 i j c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [0], [0, 1], [1], [], [], w⟩ : DotDims ⟨3, ![a, b, k]⟩ ⟨2, ![k, n]⟩ ⟨3, ![a, b, n]⟩).rhsIdx (ix3 i j h)
      ((contrEquiv1 _ k rfl rfl).symm c) = ix2 c h := by
    funext ax; apply Fin.ext
    match ax with
    | ⟨0, _⟩ => simp [DotDims.rhsIdx]; exact c3
    | ⟨1, _⟩ => simp [DotDims.rhsIdx]; rfl
  rw [l3, r3]

/-! ## The gather of rows -/

/-- `stablehlo.gather` of an `[N, D]` operand at start indices `[R, C, 1]` with offset axis 2, collapsed axis 0, start
    index map `[0]`, index vector axis 2 and slice sizes `[1, D]` — what `x[idx]` of a matrix at an integer table
    lowers to — read at (r, c, f): the operand's row `idx (r, c, 0)`, read signed and clamped into `[0, N − 1]`, at
    column `f`. -/
theorem gather_rows_apply {α : Type} {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (r : Fin R) (c : Fin C) (f : Fin D) :
    Host.gather (⟨[2], [0], [], [], [0], 2, ![1, D], wf⟩ : GatherDims ⟨2, ![N, D]⟩ ⟨3, ![R, C, 1]⟩ ⟨3, ![R, C, D]⟩) x idx (ix3 r c f)
      = x (ix2 ⟨min (idx (ix3 r c (0 : Fin 1))).toInt.toNat (N - 1), by omega⟩ f) := by
  unfold Host.gather
  congr 1
  funext a
  refine Fin.ext ?_
  match a with
  | ⟨0, _⟩ =>
    show GatherDims.start _ (ix3 r c f) idx 0 + GatherDims.batchCoord _ (ix3 r c f) 0 + GatherDims.offCoord _ (ix3 r c f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ [(0 : Fin 2)] from List.mem_singleton.mpr rfl)]
    have hsi : GatherDims.siIdx (⟨[2], [0], [], [], [0], 2, ![1, D], wf⟩ : GatherDims ⟨2, ![N, D]⟩ ⟨3, ![R, C, 1]⟩ ⟨3, ![R, C, D]⟩)
        (ix3 r c f) ⟨List.idxOf (0 : Fin 2) [(0 : Fin 2)], List.idxOf_lt_length_iff.2 (List.mem_singleton.mpr rfl)⟩
          = ix3 r c (0 : Fin 1) := by
      funext b; refine Fin.ext ?_
      match b with
      | ⟨0, _⟩ => rfl
      | ⟨1, _⟩ => rfl
      | ⟨2, _⟩ => rfl
    rw [hsi]
    rfl
  | ⟨1, _⟩ =>
    show GatherDims.start _ (ix3 r c f) idx 1 + GatherDims.batchCoord _ (ix3 r c f) 1 + GatherDims.offCoord _ (ix3 r c f) 1 = f.val
    rw [GatherDims.batchCoord_eq_zero _ _ _ List.not_mem_nil]
    unfold GatherDims.start
    rw [dif_neg (show ¬ (1 : Fin 2) ∈ [(0 : Fin 2)] by decide)]
    unfold GatherDims.offCoord
    rw [dif_pos ((GatherDims.mem_sKept _ _).mpr ⟨(show (1 : Fin 2) ∉ [(0 : Fin 2)] by decide), List.not_mem_nil⟩)]
    -- the operand's kept axes are `[1]`, so axis 1 is read off the result's offset axis `[2][0] = 2`
    have key : ∀ (l : List (Fin 2)) (_ : l = [1]) (hp : List.idxOf (1 : Fin 2) l < [(2 : Fin 3)].length),
        ((ix3 r c f) ([(2 : Fin 3)][List.idxOf (1 : Fin 2) l]'hp)).val = f.val := by
      intro l hl hp; subst hl; rfl
    simp only [Nat.zero_add]
    exact key _ (by simp [GatherDims.sKept, Shape.kept, List.finRange]) _

/-! ## The sum over the middle axis -/

/-- The host's float sum of `[a, b, c]` over axis 1 from a rank-zero initial value, at the ideal values, read at (i, o):
    the initial value plus the sum over the middle coordinate. -/
theorem reduceMid_apply {a b c : Nat} {φ : FTy} (h' : Shape.ReducesTo ⟨3, ![a, b, c]⟩ [1] ⟨2, ![a, c]⟩)
    (hu : 0 < (⟨0, ![]⟩ : Shape).numel) (x : FVec Ideal ⟨3, ![a, b, c]⟩ φ) (init : FVec Ideal ⟨0, ![]⟩ φ)
    (i : Fin a) (o : Fin c) :
    Host.reduceAdd (F := Ideal) x init h' hu (ix2 i o) = init (Shape.Idx.first hu) + ∑ j : Fin b, x (ix3 i j o) := by
  have h : Shape.Reduces ⟨3, ![a, b, c]⟩ [1] ⟨2, ![a, c]⟩ := ⟨h'.1, Nat.zero_lt_two, h'.2⟩
  show Ideal.hostReduceAdd h' x (init (Shape.Idx.first hu)) (ix2 i o) = _
  rw [Ideal.hostReduceAdd_single h' h]
  refine congrArg (init (Shape.Idx.first hu) + ·) ?_
  show ∑ j : Fin b, x (h.lift (ix2 i o) j) = ∑ j : Fin b, x (ix3 i j o)
  refine Finset.sum_congr rfl fun j _ => congrArg x (funext fun d => Fin.ext ?_)
  match d with
  | ⟨0, _⟩ => rfl
  | ⟨1, _⟩ => rfl
  | ⟨2, _⟩ => rfl

end Cert.ReferenceIdeal.RefRead

end
-- ==== Proof.RefValue.lean ====
/-
  The reference's value: the staged term read at an index is the specification's `refVal`, so the fold of the reference's
  operations at the result buffer is `refArr` of the argument buffers' contents; and the run.

  Read at (i, o), innermost stage first:
  * a row's own features, broadcast over the partner axis, are `x i f`; the gathered rows are `x (partner i j) f`
    (the start index is the partner row: the integer stages);
  * the two side by side are the specification's `pairRow`: feature `f < 64` from the row itself, `f ≥ 64` from the
    partner at `f − 64`;
  * the first contraction is `∑ f, pairRow f · W1 f h`, the bias `b1 h` is added and `tanh` taken; the second
    contraction is `∑ h, tanh(…) · W2 h o`, plus `b2 o`;
  * the sum over the partner axis starts from the float constant 0, which is the extended real 0, and the quotient is
    by the float constant 1023, left as the specification names it.
-/
import proofs.«126472_j77927886618998_1_alg».proof.Proof.RefTerm
import proofs.«126472_j77927886618998_1_alg».proof.Proof.RefIndex
import proofs.«126472_j77927886618998_1_alg».proof.Proof.RefRead
import proofs.«126472_j77927886618998_1_alg».proof.Proof.Spec
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

variable (x : FVec Ideal S1024x64 .f32) (W1 : FVec Ideal S128x128 .f32) (b1 : FVec Ideal S128 .f32)
  (W2 : FVec Ideal S128x64 .f32) (b2 : FVec Ideal S64 .f32)

/-! ## The pair's features -/

/-- A row's own features broadcast over the partner axis. -/
theorem own_apply (i : Fin 1024) (j : Fin 1023) (f : Fin 64) :
    broadcastInDim S1024x1023x64 ![0, 1, 2] bcast_S1024x1x64_S1024x1023x64_0_1_2
        (broadcastInDim S1024x1x64 ![0, 2] bcast_S1024x64_S1024x1x64_0_2 x) (ix3 i j f) = x (ix2 i f) := by
  unfold broadcastInDim
  refine congrArg x (funext fun a => Fin.ext ?_)
  match a with
  | ⟨0, _⟩ => rfl
  | ⟨1, _⟩ => rfl

/-- The gathered rows are the partner rows. -/
theorem gath_apply (i : Fin 1024) (j : Fin 1023) (f : Fin 64) :
    gath x (ix3 i j f) = x (ix2 (Cert.Spec.partner i j) f) :=
  (RefRead.gather_rows_apply (N := 1024) (D := 64) (R := 1024) (C := 1023) (by decide)
      gather_S1024x64_S1024x1023x1_S1024x1023x64_2_0_n_n_0_2_164_wf x idx17 i j f).trans
    (congrArg (fun r => x (ix2 r f)) (start_eq_partner i j _))

/-- The two side by side: the specification's `pairRow`. -/
theorem pairs_apply (i : Fin 1024) (j : Fin 1023) (f : Fin 128) :
    pairs x (ix3 i j f) = Cert.Spec.pairRow (Cert.Spec.xOf x) i j f := by
  unfold pairs Cert.Spec.pairRow
  by_cases hf : f.val < 64
  · rw [dif_pos hf]
    refine (concatenate_pair_apply_left (s₁ := S1024x1023x64) (s₂ := S1024x1023x64) (2 : Fin 3) _ _ _ (ix3 i j f) rfl (ix3 i j (⟨f.val, hf⟩ : Fin 64)) fun b => ?_).trans
      (own_apply x i j ⟨f.val, hf⟩)
    match b with
    | ⟨0, _⟩ => rfl
    | ⟨1, _⟩ => rfl
    | ⟨2, _⟩ => rfl
  · rw [dif_neg hf]
    have hlt : f.val - 64 < 64 := by have := f.isLt; omega
    refine (concatenate_pair_apply_right (s₁ := S1024x1023x64) (s₂ := S1024x1023x64) (2 : Fin 3) _ _ _ (ix3 i j f) rfl rfl (ix3 i j (⟨f.val - 64, hlt⟩ : Fin 64))
      (fun b hb => ?_) ?_).trans (gath_apply x i j ⟨f.val - 64, hlt⟩)
    · match b with
      | ⟨0, _⟩ => rfl
      | ⟨1, _⟩ => rfl
      | ⟨2, _⟩ => exact absurd rfl hb
    · show f.val - 64 + 64 = f.val
      omega

/-! ## The two dense layers -/

/-- The bias of the first layer, broadcast over rows and partners. -/
theorem bias1_apply (i : Fin 1024) (j : Fin 1023) (h : Fin 128) :
    broadcastInDim S1024x1023x128 ![0, 1, 2] bcast_S1x1x128_S1024x1023x128_0_1_2
        (broadcastInDim S1x1x128 ![2] bcast_S128_S1x1x128_2 b1) (ix3 i j h) = b1 (ix1 h) := by
  unfold broadcastInDim
  refine congrArg b1 (funext fun a => Fin.ext ?_)
  match a with
  | ⟨0, _⟩ => rfl

/-- The bias of the second layer, broadcast over rows and partners. -/
theorem bias2_apply (i : Fin 1024) (j : Fin 1023) (o : Fin 64) :
    broadcastInDim S1024x1023x64 ![0, 1, 2] bcast_S1x1x64_S1024x1023x64_0_1_2
        (broadcastInDim S1x1x64 ![2] bcast_S64_S1x1x64_2 b2) (ix3 i j o) = b2 (ix1 o) := by
  unfold broadcastInDim
  refine congrArg b2 (funext fun a => Fin.ext ?_)
  match a with
  | ⟨0, _⟩ => rfl

/-- The hidden layer at (i, j, h). -/
theorem hid_apply (i : Fin 1024) (j : Fin 1023) (h : Fin 128) :
    hid x W1 b1 (ix3 i j h)
      = Ideal.tanh ((∑ f : Fin 128, Cert.Spec.pairRow (Cert.Spec.xOf x) i j f * W1 (ix2 f h)) + b1 (ix1 h)) := by
  show Ideal.tanh
      (Host.dotGeneral dot_S1024x1023x128_S128x128_S1024x1023x128_2_0_01_1_n_n none (pairs x) W1 (ix3 i j h)
        + broadcastInDim S1024x1023x128 ![0, 1, 2] bcast_S1x1x128_S1024x1023x128_0_1_2
            (broadcastInDim S1x1x128 ![2] bcast_S128_S1x1x128_2 b1) (ix3 i j h)) = _
  rw [bias1_apply,
    show Host.dotGeneral dot_S1024x1023x128_S128x128_S1024x1023x128_2_0_01_1_n_n none (pairs x) W1 (ix3 i j h)
        = ∑ f : Fin 128, pairs x (ix3 i j f) * W1 (ix2 f h) from
      RefRead.dot32_apply dot_S1024x1023x128_S128x128_S1024x1023x128_2_0_01_1_n_n_wf none (pairs x) W1 i j h]
  refine congrArg (fun s => Ideal.tanh (s + b1 (ix1 h))) (Finset.sum_congr rfl fun f _ => ?_)
  rw [pairs_apply]

/-- The per-pair update at (i, j, o). -/
theorem upd_apply (i : Fin 1024) (j : Fin 1023) (o : Fin 64) :
    upd x W1 b1 W2 b2 (ix3 i j o)
      = (∑ h : Fin 128,
            Ideal.tanh ((∑ f : Fin 128, Cert.Spec.pairRow (Cert.Spec.xOf x) i j f * W1 (ix2 f h)) + b1 (ix1 h))
              * W2 (ix2 h o))
          + b2 (ix1 o) := by
  show Host.dotGeneral dot_S1024x1023x128_S128x64_S1024x1023x64_2_0_01_1_n_n none (hid x W1 b1) W2 (ix3 i j o)
      + broadcastInDim S1024x1023x64 ![0, 1, 2] bcast_S1x1x64_S1024x1023x64_0_1_2
          (broadcastInDim S1x1x64 ![2] bcast_S64_S1x1x64_2 b2) (ix3 i j o) = _
  rw [bias2_apply,
    show Host.dotGeneral dot_S1024x1023x128_S128x64_S1024x1023x64_2_0_01_1_n_n none (hid x W1 b1) W2 (ix3 i j o)
        = ∑ h : Fin 128, hid x W1 b1 (ix3 i j h) * W2 (ix2 h o) from
      RefRead.dot32_apply dot_S1024x1023x128_S128x64_S1024x1023x64_2_0_01_1_n_n_wf none (hid x W1 b1) W2 i j o]
  refine congrArg (· + b2 (ix1 o)) (Finset.sum_congr rfl fun h _ => ?_)
  rw [hid_apply]

/-! ## The mean over the partners -/

/-- The result at (i, o): the specification's `refVal`. -/
theorem outT_apply (i : Fin 1024) (o : Fin 64) :
    outT x W1 b1 W2 b2 (ix2 i o)
      = Cert.Spec.refVal (Cert.Spec.xOf x) (Cert.Spec.w1Of W1) (Cert.Spec.b1Of b1) (Cert.Spec.w2Of W2) (Cert.Spec.b2Of b2) i o := by
  show Ideal.div
      (Host.reduceAdd (F := Ideal) (upd x W1 b1 W2 b2) (constant (F := Ideal) S_ .f32 0x00000000#32)
        reducesTo_S1024x1023x64_S1024x64_d1 h_S_ (ix2 i o))
      (Ideal.ofBits .f32 0x447FC000#32) = _
  rw [RefRead.reduceMid_apply reducesTo_S1024x1023x64_S1024x64_d1 h_S_ (upd x W1 b1 W2 b2) _ i o]
  show Ideal.div (Ideal.ofBits .f32 0x00000000#32 + ∑ j : Fin 1023, upd x W1 b1 W2 b2 (ix3 i j o)) _ = _
  rw [Ideal.ofBits_zero_f32, zero_add]
  unfold Cert.Spec.refVal
  refine congrArg (fun s => Ideal.div s Cert.Spec.c1023) (Finset.sum_congr rfl fun j _ => ?_)
  rw [upd_apply]

/-- The staged term is the specification's array. -/
theorem outT_eq_refArr : outT x W1 b1 W2 b2 = Cert.Spec.refArr x W1 b1 W2 b2 := by
  funext idx
  obtain ⟨i, o, rfl⟩ : ∃ (i : Fin 1024) (o : Fin 64), idx = ix2 i o := ⟨idx 0, idx 1, eq_ix2 idx⟩
  rw [Cert.Spec.refArr_apply]
  exact outT_apply x W1 b1 W2 b2 i o

/-! ## The fold and the run -/

/-- The fold of the reference's operations at the result buffer is the specification's array of the argument buffers'
    contents. -/
theorem out_eq (V : Valuation τ sig (Elt Ideal)) :
    (after (RefRun.ops (F := Ideal)) V (main_v31 : DevRef τ sig) : FVec Ideal S1024x64 .f32)
      = Cert.Spec.refArr (V (main_arg0 : DevRef τ sig)) (V (main_arg1 : DevRef τ sig)) (V (main_arg2 : DevRef τ sig))
          (V (main_arg3 : DevRef τ sig)) (V (main_arg4 : DevRef τ sig)) :=
  (outT_eq V).trans (outT_eq_refArr _ _ _ _ _)

/-- At the ideal values, from any memory whose counters are zero: every weakly fair execution of the reference
    terminates with the result buffer at the specification's array of the launch contents of the five arguments, and
    the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v31)
          = Cert.Spec.refArr (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v31).trans (out_eq _), (h c main_arg0).trans (arg0_eq _),
      (h c main_arg1).trans (arg1_eq _), (h c main_arg2).trans (arg2_eq _), (h c main_arg3).trans (arg3_eq _),
      (h c main_arg4).trans (arg4_eq _)⟩)
    (RefRun.run_main m ρ)

end Cert.ReferenceIdeal.RefValue

end
-- ==== Proof.Law.lean ====
/-
  The kernel's value and the reference's value agree entry by entry when every input entry is a real number.

  With real entries every intermediate quantity is the image of a real number, so both values are images of real
  expressions and the claim is an identity between reals.  Write, for a row i, a partner row k and a hidden unit h,
      t i k h = tanh (A i h + B k h + b1 h),   A i h = Σ_f x i f · W1 f h,   B k h = Σ_f x k f · W1 (64+f) h,
  and u i k = Σ_h t i k h · W2 h o.  Then
    * contracting the 128 side-by-side features of the pair (i, partner i j) with W1 splits into the first 64 and the
      last 64 features, giving A i h + B (partner i j) h;
    * W2 moves inside the sum over the 32 × 32 partners, and (kb, q) ↦ 32·kb + q enumerates all 1024 rows, so the
      kernel's contracted accumulator is Σ_k u i k;
    * k ↦ i + k permutes the rows, so Σ_k u i k = u i i + Σ_{j < 1023} u i (i + (j+1)); removing the term k = i leaves
      the sum over the 1023 partners;
    * (Σ_j (u_j + b)) / 1023 = (Σ_j u_j) / 1023 + b, the sum having 1023 terms.
-/
import proofs.«126472_j77927886618998_1_alg».proof.Proof.Spec
import Mathlib.Algebra.BigOperators.Fin
import Mathlib.Logic.Equiv.Fin.Basic
import Mathlib.Tactic.Ring
import Mathlib.Tactic.NormNum

noncomputable section

namespace Cert.Spec

open Idealize.ShloMosaic

/-! ### The divisor and finite sums of real images -/

/-- The divisor's pattern has exponent field 136 and fraction 0x7FC000: (2^23 + 8372224) · 2^(136 - 127 - 23) = 1023. -/
theorem c1023_eq : c1023 = ((1023 : ℝ) : EReal) := by
  simp [c1023, Ideal.ofBits, Ideal.ieee, -EReal.coe_mul]; norm_num

/-- A finite sum of images of reals is the image of the real sum. -/
theorem coe_sum {α : Type*} (s : Finset α) (g : α → ℝ) :
    ∑ a ∈ s, ((g a : ℝ) : EReal) = ((∑ a ∈ s, g a : ℝ) : EReal) := by
  classical
  induction s using Finset.induction_on with
  | empty => simp
  | insert a s ha ih => rw [Finset.sum_insert ha, Finset.sum_insert ha, ih, EReal.coe_add]

/-! ### Real identities over abstract functions -/

/-- A sum over 128 indices is the sum over the first 64 plus the sum over the last 64. -/
theorem sum_fin128 (g : Fin 128 → ℝ) :
    ∑ f : Fin 128, g f = ∑ f : Fin 64, g ⟨f.val, by omega⟩ + ∑ f : Fin 64, g ⟨64 + f.val, by omega⟩ :=
  Fin.sum_univ_add (a := 64) (b := 64) g

/-- (kb, q) ↦ 32·kb + q enumerates the 1024 rows. -/
theorem sum_rows (g : Fin 1024 → ℝ) :
    ∑ kb : Fin 32, ∑ q : Fin 32, g (rowOf kb q) = ∑ k : Fin 1024, g k := by
  rw [← Fintype.sum_prod_type' (f := fun kb q => g (rowOf kb q))]
  refine Fintype.sum_equiv (finProdFinEquiv (m := 32) (n := 32)) _ _ (fun p => ?_)
  congr 1
  apply Fin.ext
  simp only [rowOf, finProdFinEquiv_apply_val]
  omega

/-- k ↦ i + k permutes the rows: the sum over all rows is the term at i plus the sum over the 1023 partners. -/
theorem sum_partners (g : Fin 1024 → ℝ) (i : Fin 1024) :
    ∑ k : Fin 1024, g k = g i + ∑ j : Fin 1023, g (partner i j) := by
  rw [← Equiv.sum_comp (Equiv.addLeft i) g]
  simp only [Equiv.coe_addLeft]
  rw [Fin.sum_univ_succ (n := 1023) (fun k => g (i + k)), add_zero]
  rfl

/-- The mean of 1023 terms each carrying the same added constant. -/
theorem mean_add_const (u : Fin 1023 → ℝ) (b : ℝ) :
    (∑ j : Fin 1023, (u j + b)) * (1 / 1023 : ℝ) = (∑ j : Fin 1023, u j) * (1 / 1023 : ℝ) + b := by
  rw [Finset.sum_add_distrib, Finset.sum_const, Finset.card_univ, Fintype.card_fin, nsmul_eq_mul]
  push_cast
  ring

/-! ### The real counterparts of the specification's quantities -/

section Real

variable (xr : Fin 1024 → Fin 64 → ℝ) (w1r : Fin 128 → Fin 128 → ℝ) (b1r : Fin 128 → ℝ)
  (w2r : Fin 128 → Fin 64 → ℝ) (b2r : Fin 64 → ℝ)

/-- A i h = Σ_f x i f · W1 f h over the reals. -/
def ownR (i : Fin 1024) (h : Fin 128) : ℝ := ∑ f : Fin 64, xr i f * w1r ⟨f.val, by omega⟩ h

/-- B k h = Σ_f x k f · W1 (64+f) h over the reals. -/
def otherR (k : Fin 1024) (h : Fin 128) : ℝ := ∑ f : Fin 64, xr k f * w1r ⟨64 + f.val, by omega⟩ h

/-- t i k h = tanh (A i h + B k h + b1 h). -/
def tR (i k : Fin 1024) (h : Fin 128) : ℝ := Real.tanh (ownR xr w1r i h + otherR xr w1r k h + b1r h)

/-- u i k = Σ_h t i k h · W2 h o. -/
def uR (o : Fin 64) (i k : Fin 1024) : ℝ := ∑ h : Fin 128, tR xr w1r b1r i k h * w2r h o

/-- The pair's 128 side-by-side features over the reals. -/
def pairR (i : Fin 1024) (j : Fin 1023) (f : Fin 128) : ℝ :=
  if hf : f.val < 64 then xr i ⟨f.val, hf⟩ else xr (partner i j) ⟨f.val - 64, by omega⟩

/-- The kernel's value as a real expression. -/
def kerR (i : Fin 1024) (o : Fin 64) : ℝ :=
  ((∑ h : Fin 128, (∑ kb : Fin 32, ∑ q : Fin 32, tR xr w1r b1r i (rowOf kb q) h) * w2r h o)
      - ∑ h : Fin 128, tR xr w1r b1r i i h * w2r h o) * (1 / 1023 : ℝ) + b2r o

/-- The reference's value as a real expression. -/
def refR (i : Fin 1024) (o : Fin 64) : ℝ :=
  (∑ j : Fin 1023,
    ((∑ h : Fin 128, Real.tanh ((∑ f : Fin 128, pairR xr i j f * w1r f h) + b1r h) * w2r h o) + b2r o))
    * (1 / 1023 : ℝ)

/-! ### Each quantity at real inputs is the image of its real counterpart -/

theorem own_coe (i : Fin 1024) (h : Fin 128) :
    own (fun i f => (xr i f : EReal)) (fun f h => (w1r f h : EReal)) i h = (ownR xr w1r i h : EReal) := by
  unfold own ownR
  simp only [← EReal.coe_mul]
  exact coe_sum _ _

theorem other_coe (k : Fin 1024) (h : Fin 128) :
    other (fun i f => (xr i f : EReal)) (fun f h => (w1r f h : EReal)) k h = (otherR xr w1r k h : EReal) := by
  unfold other otherR
  simp only [← EReal.coe_mul]
  exact coe_sum _ _

theorem tanh_pre_coe (i k : Fin 1024) (h : Fin 128) :
    Ideal.tanh (pre (fun i f => (xr i f : EReal)) (fun f h => (w1r f h : EReal)) (fun h => (b1r h : EReal)) i k h)
      = (tR xr w1r b1r i k h : EReal) := by
  unfold pre tR
  rw [own_coe, other_coe, ← EReal.coe_add, ← EReal.coe_add]
  rfl

theorem acc_coe (i : Fin 1024) (h : Fin 128) :
    acc (fun i f => (xr i f : EReal)) (fun f h => (w1r f h : EReal)) (fun h => (b1r h : EReal)) i h
      = ((∑ kb : Fin 32, ∑ q : Fin 32, tR xr w1r b1r i (rowOf kb q) h : ℝ) : EReal) := by
  unfold acc
  simp only [tanh_pre_coe, coe_sum]

theorem kerVal_coe (i : Fin 1024) (o : Fin 64) :
    kerVal (fun i f => (xr i f : EReal)) (fun f h => (w1r f h : EReal)) (fun h => (b1r h : EReal))
      (fun h o => (w2r h o : EReal)) (fun o => (b2r o : EReal)) i o = (kerR xr w1r b1r w2r b2r i o : EReal) := by
  unfold kerVal kerR
  rw [c1023_eq, Ideal.div_coe (by norm_num)]
  simp only [acc_coe, tanh_pre_coe, ← EReal.coe_mul, coe_sum, ← EReal.coe_sub, ← EReal.coe_add]

theorem pairRow_coe (i : Fin 1024) (j : Fin 1023) (f : Fin 128) :
    pairRow (fun i f => (xr i f : EReal)) i j f = (pairR xr i j f : EReal) := by
  unfold pairRow pairR
  split_ifs <;> rfl

theorem refVal_coe (i : Fin 1024) (o : Fin 64) :
    refVal (fun i f => (xr i f : EReal)) (fun f h => (w1r f h : EReal)) (fun h => (b1r h : EReal))
      (fun h o => (w2r h o : EReal)) (fun o => (b2r o : EReal)) i o = (refR xr w1r b1r w2r b2r i o : EReal) := by
  unfold refVal refR
  rw [c1023_eq, Ideal.div_coe (by norm_num)]
  simp only [pairRow_coe, ← EReal.coe_mul, coe_sum, ← EReal.coe_add, Ideal.tanh_coe]

end Real

/-! ### The identity between the two real expressions -/

section Identity

variable (xr : Fin 1024 → Fin 64 → ℝ) (w1r : Fin 128 → Fin 128 → ℝ) (b1r : Fin 128 → ℝ)
  (w2r : Fin 128 → Fin 64 → ℝ) (b2r : Fin 64 → ℝ)

/-- Contracting the pair's 128 features with W1: the first 64 give A i h, the last 64 give B (partner i j) h. -/
theorem pair_contract (i : Fin 1024) (j : Fin 1023) (h : Fin 128) :
    ∑ f : Fin 128, pairR xr i j f * w1r f h = ownR xr w1r i h + otherR xr w1r (partner i j) h := by
  rw [sum_fin128]
  unfold ownR otherR pairR
  refine congrArg₂ (· + ·) (Finset.sum_congr rfl fun f _ => ?_) (Finset.sum_congr rfl fun f _ => ?_)
  · have hlt : f.val < 64 := f.isLt
    simp only [dif_pos hlt, Fin.eta]
  · have hlt : ¬ (64 + f.val < 64) := by omega
    simp only [dif_neg hlt, Nat.add_sub_cancel_left, Fin.eta]

/-- W2 moves inside the sum over the 32 × 32 partners, which enumerate all 1024 rows. -/
theorem ker_sum (i : Fin 1024) (o : Fin 64) :
    ∑ h : Fin 128, (∑ kb : Fin 32, ∑ q : Fin 32, tR xr w1r b1r i (rowOf kb q) h) * w2r h o
      = ∑ k : Fin 1024, uR xr w1r b1r w2r o i k :=
  calc ∑ h : Fin 128, (∑ kb : Fin 32, ∑ q : Fin 32, tR xr w1r b1r i (rowOf kb q) h) * w2r h o
      = ∑ h : Fin 128, ∑ k : Fin 1024, tR xr w1r b1r i k h * w2r h o := by
        refine Finset.sum_congr rfl (fun h _ => ?_)
        rw [sum_rows (fun k => tR xr w1r b1r i k h), Finset.sum_mul]
    _ = ∑ k : Fin 1024, ∑ h : Fin 128, tR xr w1r b1r i k h * w2r h o := Finset.sum_comm

/-- The reference's inner contraction for the j-th partner is u i (partner i j). -/
theorem ref_inner (i : Fin 1024) (o : Fin 64) (j : Fin 1023) :
    ∑ h : Fin 128, Real.tanh ((∑ f : Fin 128, pairR xr i j f * w1r f h) + b1r h) * w2r h o
      = uR xr w1r b1r w2r o i (partner i j) := by
  unfold uR tR
  refine Finset.sum_congr rfl (fun h _ => ?_)
  rw [pair_contract]

theorem kerR_eq_refR (i : Fin 1024) (o : Fin 64) :
    kerR xr w1r b1r w2r b2r i o = refR xr w1r b1r w2r b2r i o := by
  unfold kerR refR
  simp only [ref_inner]
  rw [mean_add_const, ker_sum, sum_partners _ i]
  have hii : ∑ h : Fin 128, tR xr w1r b1r i i h * w2r h o = uR xr w1r b1r w2r o i i := rfl
  rw [hii, add_sub_cancel_left]

end Identity

/-! ### The law -/

/-- With real entries the kernel's value is the reference's value. -/
theorem law (x : Fin 1024 → Fin 64 → EReal) (W1 : Fin 128 → Fin 128 → EReal) (b1 : Fin 128 → EReal)
    (W2 : Fin 128 → Fin 64 → EReal) (b2 : Fin 64 → EReal)
    (hx : ∀ i f, ∃ r : ℝ, x i f = (r : EReal)) (hW1 : ∀ f h, ∃ r : ℝ, W1 f h = (r : EReal))
    (hb1 : ∀ h, ∃ r : ℝ, b1 h = (r : EReal)) (hW2 : ∀ h o, ∃ r : ℝ, W2 h o = (r : EReal))
    (hb2 : ∀ o, ∃ r : ℝ, b2 o = (r : EReal)) (i : Fin 1024) (o : Fin 64) :
    kerVal x W1 b1 W2 b2 i o = refVal x W1 b1 W2 b2 i o := by
  choose xr hxr using hx
  choose w1r hw1r using hW1
  choose b1r hb1r using hb1
  choose w2r hw2r using hW2
  choose b2r hb2r using hb2
  obtain rfl : x = fun i f => (xr i f : EReal) := funext fun i => funext fun f => hxr i f
  obtain rfl : W1 = fun f h => (w1r f h : EReal) := funext fun f => funext fun h => hw1r f h
  obtain rfl : b1 = fun h => (b1r h : EReal) := funext hb1r
  obtain rfl : W2 = fun h o => (w2r h o : EReal) := funext fun h => funext fun o => hw2r h o
  obtain rfl : b2 = fun o => (b2r o : EReal) := funext hb2r
  rw [kerVal_coe, refVal_coe, kerR_eq_refR]

/-- The same for the whole result arrays. -/
theorem law_arr (x : FVec Ideal ⟨2, ![1024, 64]⟩ .f32) (W1 : FVec Ideal ⟨2, ![128, 128]⟩ .f32)
    (b1 : FVec Ideal ⟨1, ![128]⟩ .f32) (W2 : FVec Ideal ⟨2, ![128, 64]⟩ .f32) (b2 : FVec Ideal ⟨1, ![64]⟩ .f32)
    (hx : ∀ (i : Fin 1024) (f : Fin 64), ∃ r : ℝ, x (ValueIdx.ix2 i f) = (r : EReal))
    (hW1 : ∀ (f h : Fin 128), ∃ r : ℝ, W1 (ValueIdx.ix2 f h) = (r : EReal))
    (hb1 : ∀ h : Fin 128, ∃ r : ℝ, b1 (ValueIdx.ix1 h) = (r : EReal))
    (hW2 : ∀ (h : Fin 128) (o : Fin 64), ∃ r : ℝ, W2 (ValueIdx.ix2 h o) = (r : EReal))
    (hb2 : ∀ o : Fin 64, ∃ r : ℝ, b2 (ValueIdx.ix1 o) = (r : EReal)) :
    kerArr x W1 b1 W2 b2 = refArr x W1 b1 W2 b2 := by
  funext idx
  obtain ⟨i, o, rfl⟩ : ∃ (i : Fin 1024) (o : Fin 64), idx = ValueIdx.ix2 i o :=
    ⟨idx 0, idx 1, ValueIdx.eq_ix2 idx⟩
  rw [kerArr_apply, refArr_apply]
  exact law (xOf x) (w1Of W1) (b1Of b1) (w2Of W2) (b2Of b2) hx hW1 hb1 hW2 hb2 i o

end Cert.Spec

end
-- ==== Proof.Finite.lean ====
/-
  The printed precondition says every entry of the five argument arrays has absolute value below +∞.
  On the extended reals that leaves exactly the real numbers: |⊥| = |⊤| = ⊤ is not below ⊤.

  The precondition is a conjunction (by "and" on one-bit words) of five all-quantified comparisons, each a
  reduction by "and" over every index of a one-bit array.  A conjunction that is 1 has both conjuncts 1; a
  reduction by "and" that is 1 met a 1 at every index; and a comparison word that is 1 says the comparison holds.
-/
import proofs.«126472_j77927886618998_1_alg».proof.Pre_finite_inputs
import Idealize.ShloMosaic.Lib.ReduceAll
import Idealize.ShloMosaic.Lib.ValueIdx

noncomputable section

namespace Cert.Finite

open Idealize.ShloMosaic

/-- The shape with no axes has a single index. -/
instance : Subsingleton Cert.Pre_finite_inputs.S_.Idx := ⟨fun a b => funext fun d => d.elim0⟩

/-- The pattern with all exponent bits set and no fraction bits denotes +∞. -/
theorem inf_eq : Ideal.ofBits .f32 0x7F800000#32 = (⊤ : EReal) := by
  simp [Ideal.ofBits, Ideal.ieee]

/-- An extended real whose absolute value max x (-x) is below +∞ is a real number. -/
theorem real_of_abs_lt_inf (x : EReal)
    (h : Ideal.cmp .olt (max x (-x)) (Ideal.ofBits .f32 0x7F800000#32) = 1#1) : ∃ r : ℝ, x = (r : EReal) := by
  rw [inf_eq] at h
  induction x using EReal.rec with
  | bot => simp [Ideal.cmp] at h
  | coe r => exact ⟨r, rfl⟩
  | top => simp [Ideal.cmp] at h

open Cert.Pre_finite_inputs in
/-- The printed precondition holding says every entry of the five arrays is a real number. -/
theorem of_fn [Cert.Pre_finite_inputs.Facts] (x : FVec Ideal Cert.Pre_finite_inputs.S1024x64 .f32)
    (W1 : FVec Ideal Cert.Pre_finite_inputs.S128x128 .f32) (b1 : FVec Ideal Cert.Pre_finite_inputs.S128 .f32)
    (W2 : FVec Ideal Cert.Pre_finite_inputs.S128x64 .f32) (b2 : FVec Ideal Cert.Pre_finite_inputs.S64 .f32)
    (h : Cert.Pre_finite_inputs.fn (F := Ideal) x W1 b1 W2 b2 = fun _ => 1#1) :
    (∀ (i : Fin 1024) (f : Fin 64), ∃ r : ℝ, x (ValueIdx.ix2 i f) = (r : EReal))
    ∧ (∀ (f h : Fin 128), ∃ r : ℝ, W1 (ValueIdx.ix2 f h) = (r : EReal))
    ∧ (∀ h : Fin 128, ∃ r : ℝ, b1 (ValueIdx.ix1 h) = (r : EReal))
    ∧ (∀ (h : Fin 128) (o : Fin 64), ∃ r : ℝ, W2 (ValueIdx.ix2 h o) = (r : EReal))
    ∧ (∀ o : Fin 64, ∃ r : ℝ, b2 (ValueIdx.ix1 o) = (r : EReal)) := by
  have h0 := congrFun h ValueIdx.ix0
  dsimp only [Cert.Pre_finite_inputs.fn, Cert.Pre_finite_inputs.fn_part1] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  refine ⟨fun i f => ?_, fun f g => ?_, fun g => ?_, fun g o => ?_, fun o => ?_⟩
  · exact real_of_abs_lt_inf _ (Host.reduce_andi_all _ _ _ _ _ h1 (ValueIdx.ix2 i f))
  · exact real_of_abs_lt_inf _ (Host.reduce_andi_all _ _ _ _ _ h2 (ValueIdx.ix2 f g))
  · exact real_of_abs_lt_inf _ (Host.reduce_andi_all _ _ _ _ _ h3 (ValueIdx.ix1 g))
  · exact real_of_abs_lt_inf _ (Host.reduce_andi_all _ _ _ _ _ h4 (ValueIdx.ix2 g o))
  · exact real_of_abs_lt_inf _ (Host.reduce_andi_all _ _ _ _ _ h5 (ValueIdx.ix1 o))

end Cert.Finite

end
-- ==== Proof.lean ====
/-
  The proof of `Cert.Claim`: a message-passing layer over all pairs of 1024 rows, computed two ways.

  The reference builds, for every row `i` and each of its 1023 partners `k = i+1, …, i+1023 (mod 1024)`, the pair's
  128 features side by side, applies a dense layer, `tanh`, a second dense layer with its bias, and takes the mean
  over the partners. The kernel uses that the first layer is linear in the pair — its pre-activation is
  `A i + B k + b1` with `A = x·W1[0:64]`, `B = x·W1[64:128]` computed once — sums `tanh` over ALL 1024 partners block
  by block in a scratch accumulator, applies the second layer once per row, and afterwards subtracts the partner
  `k = i`, divides by 1023 and adds the bias `b2`.

  The modules: `Spec` states both results as functions of the five argument arrays on the extended reals; `Law`
  proves them equal when every entry is finite (the second layer moves across the finite sum over partners, the
  sum over all partners minus the term `k = i` is the sum over the others, which `j ↦ i + (j+1)` enumerates, and
  `1023·b2/1023 = b2`); `Finite` reads finiteness of every entry off the precondition; `KerPieces`, `KerPay`,
  `KerBlocks`, `KerFold`, `KerFinal`, `KerHost`, `KerValue` read the kernel program's run as `Spec.kerArr` (what a
  grid point leaves, entry by entry; the accumulator after every point by induction on the point; the output array
  from the two blocks written back; the products before the region and the operations after it); `RefRun` and the
  `Ref…` modules read the reference's run as `Spec.refArr`. The three frame claims are the generated frame runs (the
  reference's is its run with the result dropped), and the idealisation rewrote nothing.
-/
import proofs.«126472_j77927886618998_1_alg».proof.Defs
import proofs.«126472_j77927886618998_1_alg».proof.Proof.Gen.Kernel
import proofs.«126472_j77927886618998_1_alg».proof.Proof.Gen.Kernel.Frame
import proofs.«126472_j77927886618998_1_alg».proof.Proof.Gen.KernelIdeal
import proofs.«126472_j77927886618998_1_alg».proof.Proof.Gen.KernelIdeal.Frame
import proofs.«126472_j77927886618998_1_alg».proof.Proof.Gen.ReferenceIdeal
import proofs.«126472_j77927886618998_1_alg».proof.Proof.Gen.Pre_finite_inputs
import proofs.«126472_j77927886618998_1_alg».proof.Proof.KerValue
import proofs.«126472_j77927886618998_1_alg».proof.Proof.RefValue
import proofs.«126472_j77927886618998_1_alg».proof.Proof.Law
import proofs.«126472_j77927886618998_1_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both programs end at one array: the kernel's at `kerArr` of its arguments, the reference's at `refArr` of
    arguments that agree with them, and on finite entries the two are equal. -/
theorem algebraic : Cert.algebraic_KernelIdeal_ReferenceIdeal := by
  intro m ρ m' ρ' hpre hagree
  refine ⟨fun c => Cert.Spec.kerArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Value.run m ρ, ?_⟩
  refine (θ_run Cert.ReferenceIdeal.defs _ _).mono (fun _ h c => ⟨(h c).1.trans ?_, (h c).2⟩)
    (Cert.ReferenceIdeal.RefValue.run m' ρ')
  obtain ⟨a0, a1, a2, a3, a4⟩ := hagree c
  rw [a0, a1, a2, a3, a4]
  obtain ⟨hx, hW1, hb1, hW2, hb2⟩ := Cert.Finite.of_fn _ _ _ _ _ (hpre c)
  exact (Cert.Spec.law_arr _ _ _ _ _ hx hW1 hb1 hW2 hb2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
